-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S2x2048x16x64 : Shape := ⟨4, ![2, 2048, 16, 64]⟩
abbrev S2x16x2048x64 : Shape := ⟨4, ![2, 16, 2048, 64]⟩
abbrev S1x1x2048x64 : Shape := ⟨4, ![1, 1, 2048, 64]⟩
abbrev S2048x64 : Shape := ⟨2, ![2048, 64]⟩
abbrev S2048x2048 : Shape := ⟨2, ![2048, 2048]⟩

abbrev nBuf : Space → Nat
  | .hbm => 34
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S4096x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S2x2048x16x64, .bf16⟩
  | .hbm, ⟨23, _⟩ => ⟨S2x16x2048x64, .bf16⟩
  | .hbm, ⟨24, _⟩ => ⟨S2x2048x16x64, .bf16⟩
  | .hbm, ⟨25, _⟩ => ⟨S2x16x2048x64, .bf16⟩
  | .hbm, ⟨26, _⟩ => ⟨S2x2048x16x64, .bf16⟩
  | .hbm, ⟨27, _⟩ => ⟨S2x16x2048x64, .bf16⟩
  | .hbm, ⟨28, _⟩ => ⟨S2x16x2048x64, .f32⟩
  | .hbm, ⟨29, _⟩ => ⟨S2x2048x16x64, .f32⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S2x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1x2048x64, .bf16⟩
  | .local _ .vmem, ⟨15, _⟩ => ⟨S1x1x2048x64, .bf16⟩
  | .local _ .vmem, ⟨16, _⟩ => ⟨S1x1x2048x64, .bf16⟩
  | .local _ .vmem, ⟨17, _⟩ => ⟨S1x1x2048x64, .bf16⟩
  | .local _ .vmem, ⟨18, _⟩ => ⟨S1x1x2048x64, .bf16⟩
  | .local _ .vmem, ⟨19, _⟩ => ⟨S1x1x2048x64, .bf16⟩
  | .local _ .vmem, ⟨20, _⟩ => ⟨S1x1x2048x64, .f32⟩
  | .local _ .vmem, ⟨21, _⟩ => ⟨S1x1x2048x64, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1x1024, .f32⟩
  | .local _ .vmem, ⟨26, _⟩ => ⟨S1024x1024, .f32⟩
  | .local _ .vmem, ⟨27, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  iota_S2048x2048_d0_w32 : S2048x2048.Iotas .tc 32 [0]
  iota_S2048x2048_d1_w32 : S2048x2048.Iotas .tc 32 [1]
  shapeCasts_S2048x64_S1x1x2048x64 : S2048x64.ShapeCasts S1x1x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S1024x1024_S1024x1024_S1024x1024_1_1_0_0_n_n_wf : DotDims.WF S1024x1024 S1024x1024 S1024x1024 [1] [1] [0] [0] [] []
  dot_S2048x64_S2048x64_S2048x2048_1_1_0_0_n_n_wf : DotDims.WF S2048x64 S2048x64 S2048x2048 [1] [1] [0] [0] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x1024.size a
  hwx0_7 : ∀ i : grid0.Coords, EltTy.bits .bf16 = 32 ∨ (Rect.block (s := S4096x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S4096x1024.size a
  hwx0_8 : ∀ i : grid0.Coords, EltTy.bits .bf16 = 32 ∨ (Rect.block (s := S4096x1024) S1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S4096x1024.size a
  hwx0_9 : ∀ i : grid0.Coords, EltTy.bits .bf16 = 32 ∨ (Rect.block (s := S4096x1024) S1024x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x64.size a ≤ S2x16x2048x64.size a
  hwx1_0 : ∀ i : grid1.Coords, EltTy.bits .bf16 = 32 ∨ (Rect.block (s := S2x16x2048x64) S1x1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048x64.size a ≤ S2x16x2048x64.size a
  hwx1_3 : ∀ i : grid1.Coords, EltTy.bits .f32 = 32 ∨ (Rect.block (s := S2x16x2048x64) S1x1x2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v12) S1x1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1x2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S1x1x2048x2048 : Shape := ⟨4, ![1, 1, 2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2048x2048, .f32⟩
  | .hbm, ⟨30, _⟩ => ⟨S2048x2048, .i32⟩
  | .hbm, ⟨31, _⟩ => ⟨S_, .i32⟩
  | .hbm, ⟨32, _⟩ => ⟨S2048x2048, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S1x1x2048x2048, .f32⟩
  | .hbm, ⟨40, _⟩ => ⟨S2x16x2048x2048, .f32⟩
  | .hbm, ⟨41, _⟩ => ⟨S2x16x2048x2048, .f32⟩
  | .hbm, ⟨42, _⟩ => ⟨S2x16x2048x64, .f32⟩
  | .hbm, ⟨43, _⟩ => ⟨S2x2048x16x64, .f32⟩
  | .hbm, ⟨44, _⟩ => ⟨S2x2048x1024, .f32⟩
  | .hbm, ⟨45, _⟩ => ⟨S2x2048x1024, .f32⟩
  | .hbm, ⟨46, _⟩ => ⟨S1x1x1024, .f32⟩
  | .hbm, ⟨47, _⟩ => ⟨S2x2048x1024, .f32⟩
  | .hbm, ⟨48, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LinAttnSpec.lean ====
/-
  Causal linear attention with four linear layers, as functions on the extended reals.

  With `X : [2, 2048, 1024]`, weights `W : [1024, 1024]` and biases `b : [1024]`:
    a linear layer is            `(lin X W b)[β, l, e] = (Σ_k X[β, l, k] · W[e, k]) + b[e]`;
    splitting into 16 heads is   `(heads P)[β, h, l, d] = P[β, l, 64·h + d]`;
    the causal core is           `(causalAttn Q K V)[β, h, l, d] = Σ_s (if s ≤ l then Σ_k Q[β,h,l,k] · K[β,h,s,k] else 0) · V[β, h, s, d]`;
    merging the heads is         `(merge O)[β, l, e] = O[β, e / 64, l, e % 64]`;
  and the whole function is `G = lin (merge (causalAttn (heads (lin X Wq bq)) (heads (lin X Wk bk)) (heads (lin X Wv bv)))) Wo bo`.

  The same function is also written on the flattened rows `r = 2048·β + l` of a `[4096, 1024]` matrix
  (`linRows`, `headsRows`, `mergeRows`, between `flat` and `unflat`): `rows_eq` says the two compositions
  are one function. Only re-indexing is used — no law of the arithmetic of the extended reals.
-/
import Idealize.ShloMosaic.PureOps.Ideal
import Idealize.ShloMosaic.Lib.ValueIdx

noncomputable section

open scoped BigOperators

namespace Cert.LinAttn

open Idealize.ShloMosaic Idealize.ShloMosaic.ValueIdx

abbrev T3 : Shape := ⟨3, ![2, 2048, 1024]⟩
abbrev TW : Shape := ⟨2, ![1024, 1024]⟩
abbrev TB : Shape := ⟨1, ![1024]⟩
abbrev TR : Shape := ⟨2, ![4096, 1024]⟩
abbrev TB2 : Shape := ⟨2, ![1, 1024]⟩
abbrev TH : Shape := ⟨4, ![2, 16, 2048, 64]⟩

/-! ## In coordinates (batch, position, feature) -/

/-- A linear layer: `(Σ_k X[β, l, k] · W[e, k]) + b[e]`. -/
def lin (X : T3.Idx → EReal) (W : TW.Idx → EReal) (b : TB.Idx → EReal) : T3.Idx → EReal :=
  fun i => (∑ k : Fin 1024, X (ix3 (i 0) (i 1) k) * W (ix2 (i 2) k)) + b (ix1 (i 2))

/-- Feature `64·h + d` of position `l` is entry `d` of head `h`. -/
def heads (P : T3.Idx → EReal) : TH.Idx → EReal :=
  fun i => P (ix3 (i 0) (i 2) ⟨(i 1).val * 64 + (i 3).val, by
    have h1 : (i 1).val < 16 := (i 1).isLt; have h3 : (i 3).val < 64 := (i 3).isLt; show _ < 1024; omega⟩)

/-- Per batch and head: position `l` sums over the positions `s ≤ l` the score `Σ_k Q[l, k] · K[s, k]` times `V[s, d]`;
    a later position contributes the score `0`. -/
def causalAttn (Q K V : TH.Idx → EReal) : TH.Idx → EReal :=
  fun i => ∑ s : Fin 2048,
    (if s.val ≤ (i 2).val then ∑ k : Fin 64, Q (ix4 (i 0) (i 1) (i 2) k) * K (ix4 (i 0) (i 1) s k) else 0)
      * V (ix4 (i 0) (i 1) s (i 3))

/-- The heads side by side again: feature `e` is entry `e % 64` of head `e / 64`. -/
def merge (O : TH.Idx → EReal) : T3.Idx → EReal :=
  fun i => O (ix4 (i 0) ⟨(i 2).val / 64, by have h2 : (i 2).val < 1024 := (i 2).isLt; show _ < 16; omega⟩ (i 1)
    ⟨(i 2).val % 64, by show _ < 64; omega⟩)

/-- The whole function of the nine arguments. -/
def G (X : T3.Idx → EReal) (Wq : TW.Idx → EReal) (bq : TB.Idx → EReal) (Wk : TW.Idx → EReal) (bk : TB.Idx → EReal)
    (Wv : TW.Idx → EReal) (bv : TB.Idx → EReal) (Wo : TW.Idx → EReal) (bo : TB.Idx → EReal) : T3.Idx → EReal :=
  lin (merge (causalAttn (heads (lin X Wq bq)) (heads (lin X Wk bk)) (heads (lin X Wv bv)))) Wo bo

/-! ## On flattened rows `r = 2048·β + l` -/

/-- The rows of `X` one under the other. -/
def flat (X : T3.Idx → EReal) : TR.Idx → EReal :=
  fun i => X (ix3 ⟨(i 0).val / 2048, by have h0 : (i 0).val < 4096 := (i 0).isLt; show _ < 2; omega⟩
    ⟨(i 0).val % 2048, by show _ < 2048; omega⟩ (i 1))

/-- Back to (batch, position): row `2048·β + l`. -/
def unflat (Y : TR.Idx → EReal) : T3.Idx → EReal :=
  fun i => Y (ix2 ⟨(i 0).val * 2048 + (i 1).val, by
    have h0 : (i 0).val < 2 := (i 0).isLt; have h1 : (i 1).val < 2048 := (i 1).isLt; show _ < 4096; omega⟩ (i 2))

/-- A bias as a one-row matrix. -/
def row1 (b : TB.Idx → EReal) : TB2.Idx → EReal := fun i => b (ix1 (i 1))

/-- A linear layer on a matrix of rows: `(Σ_k A[r, k] · W[e, k]) + b[0, e]`. -/
def linRows (A : TR.Idx → EReal) (W : TW.Idx → EReal) (b : TB2.Idx → EReal) : TR.Idx → EReal :=
  fun i => (∑ k : Fin 1024, A (ix2 (i 0) k) * W (ix2 (i 1) k)) + b (ix2 0 (i 1))

/-- Entry `d` of head `h` at (β, l) is column `64·h + d` of row `2048·β + l`. -/
def headsRows (Y : TR.Idx → EReal) : TH.Idx → EReal :=
  fun i => Y (ix2 ⟨(i 0).val * 2048 + (i 2).val, by
      have h0 : (i 0).val < 2 := (i 0).isLt; have h2 : (i 2).val < 2048 := (i 2).isLt; show _ < 4096; omega⟩
    ⟨(i 1).val * 64 + (i 3).val, by
      have h1 : (i 1).val < 16 := (i 1).isLt; have h3 : (i 3).val < 64 := (i 3).isLt; show _ < 1024; omega⟩)

/-- Column `e` of row `r` is entry `e % 64` of head `e / 64` at (r / 2048, r % 2048). -/
def mergeRows (O : TH.Idx → EReal) : TR.Idx → EReal :=
  fun i => O (ix4 ⟨(i 0).val / 2048, by have h0 : (i 0).val < 4096 := (i 0).isLt; show _ < 2; omega⟩
    ⟨(i 1).val / 64, by have h1 : (i 1).val < 1024 := (i 1).isLt; show _ < 16; omega⟩
    ⟨(i 0).val % 2048, by show _ < 2048; omega⟩ ⟨(i 1).val % 64, by show _ < 64; omega⟩)

/-- The same function through the flattened rows. -/
def GRows (X : T3.Idx → EReal) (Wq : TW.Idx → EReal) (bq : TB.Idx → EReal) (Wk : TW.Idx → EReal) (bk : TB.Idx → EReal)
    (Wv : TW.Idx → EReal) (bv : TB.Idx → EReal) (Wo : TW.Idx → EReal) (bo : TB.Idx → EReal) : T3.Idx → EReal :=
  unflat (linRows (mergeRows (causalAttn (headsRows (linRows (flat X) Wq (row1 bq))) (headsRows (linRows (flat X) Wk (row1 bk)))
    (headsRows (linRows (flat X) Wv (row1 bv))))) Wo (row1 bo))

/-- Row `2048·β + l` of the flattened array is (β, l). -/
theorem flat_row (X : T3.Idx → EReal) (β : Fin 2) (l : Fin 2048) (k : Fin 1024) (h : β.val * 2048 + l.val < 4096) :
    flat X (ix2 ⟨β.val * 2048 + l.val, h⟩ k) = X (ix3 β l k) := by
  unfold flat
  refine congrArg X (funext fun a => ?_)
  have hl := l.isLt
  match a with
  | ⟨0, _⟩ => exact Fin.ext (show (β.val * 2048 + l.val) / 2048 = β.val by omega)
  | ⟨1, _⟩ => exact Fin.ext (show (β.val * 2048 + l.val) % 2048 = l.val by omega)
  | ⟨2, _⟩ => rfl

/-- A linear layer on the flattened rows, read at the heads, is the heads of the linear layer. -/
theorem headsRows_linRows (X : T3.Idx → EReal) (W : TW.Idx → EReal) (b : TB.Idx → EReal) :
    headsRows (linRows (flat X) W (row1 b)) = heads (lin X W b) := by
  funext i
  unfold headsRows linRows heads lin row1
  dsimp only
  refine congrArg₂ (· + ·) (Finset.sum_congr rfl fun k _ => ?_) rfl
  exact congrArg (· * _) (flat_row X (i 0) (i 2) k _)

/-- Merging on rows is flattening the merged heads. -/
theorem mergeRows_eq (O : TH.Idx → EReal) : mergeRows O = flat (merge O) := by
  funext i
  rfl

/-- A linear layer on the flattened rows, unflattened, is the linear layer. -/
theorem unflat_linRows (Y : T3.Idx → EReal) (W : TW.Idx → EReal) (b : TB.Idx → EReal) :
    unflat (linRows (flat Y) W (row1 b)) = lin Y W b := by
  funext i
  unfold unflat linRows lin row1
  dsimp only
  refine congrArg₂ (· + ·) (Finset.sum_congr rfl fun k _ => ?_) rfl
  exact congrArg (· * _) (flat_row Y (i 0) (i 1) k _)

/-- Through the rows or in coordinates: one function. -/
theorem rows_eq (X : T3.Idx → EReal) (Wq : TW.Idx → EReal) (bq : TB.Idx → EReal) (Wk : TW.Idx → EReal) (bk : TB.Idx → EReal)
    (Wv : TW.Idx → EReal) (bv : TB.Idx → EReal) (Wo : TW.Idx → EReal) (bo : TB.Idx → EReal) :
    GRows X Wq bq Wk bk Wv bv Wo bo = G X Wq bq Wk bk Wv bv Wo bo := by
  unfold GRows G
  rw [headsRows_linRows, headsRows_linRows, headsRows_linRows, mergeRows_eq, unflat_linRows]

end Cert.LinAttn

end
-- ==== Proof.KernelRun.lean ====
/-
  The kernel program's run with its result NAMED. @main is seven segments — a stretch of host operations,
  a region, a stretch, a region, a stretch, a region, a stretch — and the buffer contents at the segment
  boundaries are a fold from the launch memory (`Gen.W0` … `Gen.W7`). Every weakly fair execution terminates
  without a fault with every unscoped buffer at the fold's last value; read at the result buffer and at the
  nine argument buffers this is the run below. What the fold's last value IS at the result buffer, as a
  function of the arguments, is the next module's subject.
-/
import proofs.«161519_j51771535786580_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the
    result buffer ends at the fold's last value and the nine arguments end as launched. -/
theorem run_named : θ_run defs (onTc (τ := τ) (main (F := F))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v22 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Run

end
-- ==== Proof.LinAttnLayout.lean ====
/-
  The host's layout operations are the specification's re-indexings. A reshape keeps the row-major position, so
  `[2, 2048, 1024] → [4096, 1024]` is `flat` (row `2048·β + l`), its inverse is `unflat`, and `[1024] → [1, 1024]` is
  `row1`; a reshape `[4096, 1024] → [2, 2048, 16, 64]` followed by the exchange of the two middle axes is `headsRows`
  (column `64·h + d` of row `2048·β + l`), and the exchange followed by the reshape back is `mergeRows`.
-/
import proofs.«161519_j51771535786580_1_alg».proof.Proof.LinAttnSpec
import Idealize.ShloMosaic.Lib.Pipeline.Value

noncomputable section

namespace Cert.LinAttn

open Idealize.ShloMosaic Idealize.ShloMosaic.ValueIdx

/-- Positions before heads: `[2, 2048, 16, 64]`. -/
abbrev TP : Shape := ⟨4, ![2, 2048, 16, 64]⟩

theorem cast_flat (X : T3.Idx → EReal) (h : T3.ShapeCasts TR) : shapeCast TR X h = flat X := by
  funext i
  unfold flat
  refine shapeCast_apply X h i _ ?_
  rw [Shape.rowMajor_val_three, Shape.rowMajor_val_two]
  show ((i 0).val / 2048 * 2048 + (i 0).val % 2048) * 1024 + (i 1).val = (i 0).val * 1024 + (i 1).val
  omega

theorem cast_unflat (Y : TR.Idx → EReal) (h : TR.ShapeCasts T3) : shapeCast T3 Y h = unflat Y := by
  funext i
  unfold unflat
  refine shapeCast_apply Y h i _ ?_
  rw [Shape.rowMajor_val_three, Shape.rowMajor_val_two]
  show ((i 0).val * 2048 + (i 1).val) * 1024 + (i 2).val = ((i 0).val * 2048 + (i 1).val) * 1024 + (i 2).val
  rfl

theorem cast_row1 (b : TB.Idx → EReal) (h : TB.ShapeCasts TB2) : shapeCast TB2 b h = row1 b := by
  funext i
  unfold row1
  refine shapeCast_apply b h i _ ?_
  rw [Shape.rowMajor_val_one, Shape.rowMajor_val_two]
  have h0 : (i 0).val < 1 := (i 0).isLt
  show (i 1).val = (i 0).val * 1024 + (i 1).val
  omega

theorem heads_layout (Y : TR.Idx → EReal) (h : TR.ShapeCasts TP) (h' : TP.Transposes [0, 2, 1, 3] TH) :
    transpose TH [0, 2, 1, 3] (shapeCast TP Y h) h' = headsRows Y := by
  funext j
  unfold headsRows
  refine (transpose_apply [0, 2, 1, 3] (shapeCast TP Y h) h' j (ix4 (j 0) (j 2) (j 1) (j 3)) fun b => ?_).trans ?_
  · match b with
    | ⟨0, _⟩ => rfl
    | ⟨1, _⟩ => rfl
    | ⟨2, _⟩ => rfl
    | ⟨3, _⟩ => rfl
  · refine shapeCast_apply Y h _ _ ?_
    rw [Shape.rowMajor_val_two, Shape.rowMajor_val_four]
    show ((j 0).val * 2048 + (j 2).val) * 1024 + ((j 1).val * 64 + (j 3).val)
      = (((j 0).val * 2048 + (j 2).val) * 16 + (j 1).val) * 64 + (j 3).val
    omega

theorem merge_layout (O : TH.Idx → EReal) (h' : TH.Transposes [0, 2, 1, 3] TP) (h : TP.ShapeCasts TR) :
    shapeCast TR (transpose TP [0, 2, 1, 3] O h') h = mergeRows O := by
  funext i
  unfold mergeRows
  have h0 : (i 0).val < 4096 := (i 0).isLt
  have h1 : (i 1).val < 1024 := (i 1).isLt
  refine (shapeCast_apply (transpose TP [0, 2, 1, 3] O h') h i
    (ix4 ⟨(i 0).val / 2048, by show _ < 2; omega⟩ ⟨(i 0).val % 2048, by show _ < 2048; omega⟩
      ⟨(i 1).val / 64, by show _ < 16; omega⟩ ⟨(i 1).val % 64, by show _ < 64; omega⟩) ?_).trans ?_
  · rw [Shape.rowMajor_val_two, Shape.rowMajor_val_four]
    show ((((i 0).val / 2048) * 2048 + (i 0).val % 2048) * 16 + (i 1).val / 64) * 64 + (i 1).val % 64
      = (i 0).val * 1024 + (i 1).val
    omega
  · refine transpose_apply [0, 2, 1, 3] O h' _ _ fun b => ?_
    match b with
    | ⟨0, _⟩ => rfl
    | ⟨1, _⟩ => rfl
    | ⟨2, _⟩ => rfl
    | ⟨3, _⟩ => rfl

end Cert.LinAttn

end
-- ==== Proof.ProjBlocks.lean ====
/-
  The two projection regions (queries/keys/values, and the output layer) as linear layers on row blocks.
  Each grid point `t` of either region owns rows `1024·t … 1024·t + 1023` of a `[4096, 1024]` matrix: it
  multiplies that row block by the whole weight matrix (contracting both on their second axis, into a zero
  accumulator, so the block is just the sum of products) and adds the one-row bias to every row. The four
  row blocks tile the matrix, so each output array ends as `linRows` of the arrays the region found.
-/
import proofs.«161519_j51771535786580_1_alg».proof.Proof.Gen.KernelIdeal.Frame
import proofs.«161519_j51771535786580_1_alg».proof.Proof.LinAttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Idealize.ShloMosaic Idealize.ShloMosaic.TcCoe Idealize.SL.Sem Idealize.ShloMosaic.ValueIdx
open Cert.KernelIdeal Cert.KernelIdeal.Gen Cert.LinAttn

variable (V : (c : Dev nD) → (b : Ref sig .tc) → Buf (Elt Ideal) ((c : Thread nD τ).loc b))

/-! ## One block: the product of two `[1024, 1024]` blocks on their second axes, plus a one-row bias -/

/-- The left operand of the contraction is read at the output's row. -/
theorem lhs_row (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The right operand of the contraction is read at the ROW named by the output's column. -/
theorem rhs_row (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- Into the zero accumulator, entry (r, e) of the contraction is `Σ_k x[r, k] · w[e, k]`. -/
theorem contract_apply (x w : FVec Ideal S1024x1024 .bf16) (r e : Fin 1024) :
    matmul dot_S1024x1024_S1024x1024_S1024x1024_1_1_0_0_n_n none x w (constant S1024x1024 .f32 0x00000000#32) (ix2 r e)
      = ∑ k : Fin 1024, x (ix2 r k) * w (ix2 e k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r e) ((contrEquiv1 dot_S1024x1024_S1024x1024_S1024x1024_1_1_0_0_n_n 1024 rfl rfl).symm k) = ix2 r k := funext fun a => Fin.ext (by
    match a with
    | ⟨0, _⟩ => exact lhs_row _ _
    | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 r e) ((contrEquiv1 dot_S1024x1024_S1024x1024_S1024x1024_1_1_0_0_n_n 1024 rfl rfl).symm k) = ix2 e k := funext fun a => Fin.ext (by
    match a with
    | ⟨0, _⟩ => exact rhs_row _ _
    | ⟨1, _⟩ => exact (dot_S1024x1024_S1024x1024_S1024x1024_1_1_0_0_n_n.rhsIdx_val_of_single rfl _ _).trans hk)
  rw [el, er]

/-- The one-row bias broadcast to every row: entry (r, e) is `b[0, e]`. -/
theorem bias_apply (b : FVec Ideal S1x1024 .f32) (r e : Fin 1024) :
    broadcastTo S1024x1024 b broadcasts_S1x1024_S1024x1024 (ix2 r e) = b (ix2 0 e) := by
  refine broadcastTo_apply b broadcasts_S1x1024_S1024x1024 (ix2 r e) (ix2 0 e) fun a => ?_
  match a with
  | ⟨0, _⟩ => rfl
  | ⟨1, _⟩ => rfl

/-- The output layer's block at (r, e). -/
theorem out_block_apply (x w : Vec Ideal S1024x1024 .bf16) (b : Vec Ideal S1x1024 .f32) (r e : Fin 1024) :
    k2_pay1 x w b (ix2 r e) = (∑ k : Fin 1024, x (ix2 r k) * w (ix2 e k)) + b (ix2 0 e) := by
  unfold k2_pay1
  simp only [shapeCast_self]
  rw [addf_apply, contract_apply, bias_apply]

/-- The query projection's block at (r, e); narrowing the format changes nothing at the ideal values. -/
theorem query_block_apply (x w : Vec Ideal S1024x1024 .bf16) (b : Vec Ideal S1x1024 .f32) (r e : Fin 1024) :
    k0_pay2 x w b (ix2 r e) = (∑ k : Fin 1024, x (ix2 r k) * w (ix2 e k)) + b (ix2 0 e) := by
  unfold k0_pay2 k0_pay1
  simp only [shapeCast_self]
  rw [truncf_apply, addf_apply, contract_apply, bias_apply]

/-- The key projection's block at (r, e); narrowing the format changes nothing at the ideal values. -/
theorem key_block_apply (x w : Vec Ideal S1024x1024 .bf16) (b : Vec Ideal S1x1024 .f32) (r e : Fin 1024) :
    k0_pay3 x w b (ix2 r e) = (∑ k : Fin 1024, x (ix2 r k) * w (ix2 e k)) + b (ix2 0 e) := by
  unfold k0_pay3 k0_pay1
  simp only [shapeCast_self]
  rw [truncf_apply, addf_apply, contract_apply, bias_apply]

/-- The value projection's block at (r, e); narrowing the format changes nothing at the ideal values. -/
theorem value_block_apply (x w : Vec Ideal S1024x1024 .bf16) (b : Vec Ideal S1x1024 .f32) (r e : Fin 1024) :
    k0_pay4 x w b (ix2 r e) = (∑ k : Fin 1024, x (ix2 r k) * w (ix2 e k)) + b (ix2 0 e) := by
  unfold k0_pay4 k0_pay1
  simp only [shapeCast_self]
  rw [truncf_apply, addf_apply, contract_apply, bias_apply]

/-- A block against the specification: when the three loaded blocks are the arrays' entries that row `i 0` and
    column `i 1` of the matrix name, entry `j` of a block `P` of products-plus-bias is `linRows` at `i`. -/
theorem block_eq (A : TR.Idx → EReal) (W : TW.Idx → EReal) (b : TB2.Idx → EReal)
    (x w : Vec Ideal S1024x1024 .bf16) (bb : Vec Ideal S1x1024 .f32) (P : S1024x1024.Idx → EReal)
    (hP : ∀ r e : Fin 1024, P (ix2 r e) = (∑ k : Fin 1024, x (ix2 r k) * w (ix2 e k)) + bb (ix2 0 e))
    (j : S1024x1024.Idx) (i : TR.Idx)
    (hx : ∀ k : Fin 1024, x (ix2 (j 0) k) = A (ix2 (i 0) k))
    (hw : ∀ k : Fin 1024, w (ix2 (j 1) k) = W (ix2 (i 1) k))
    (hb : bb (ix2 0 (j 1)) = b (ix2 0 (i 1))) :
    P j = linRows A W b i := by
  obtain ⟨r, e, rfl⟩ : ∃ (r e : Fin 1024), j = ix2 r e := ⟨j 0, j 1, eq_ix2 j⟩
  rw [hP]
  unfold linRows
  exact congrArg₂ (· + ·) (Finset.sum_congr rfl fun k _ => congrArg₂ (· * ·) (hx k) (hw k)) hb

/-- The zero offsets of a whole-block access, as a constant function. -/
theorem offsets_zero : (![0, 0] : Fin 2 → Nat) = fun _ => 0 := funext fun a => by fin_cases a <;> rfl

/-! ## The first region: one row window shared by the three projections -/

/-- Over the grid, the row window of the first region is at block `(t, 0)`. -/
theorem proj_rows_idx : ∀ t : Fin cfg0.N, win0_0.index t (0 : Fin 2) = t.val ∧ win0_0.index t (1 : Fin 2) = 0 :=
  (by decide +kernel : ∀ t : Fin grid0.N, _)

/-- The row window's block at point `t` is rows `1024·t … 1024·t + 1023` of its array. -/
theorem proj_rows_apply (c : Dev nD) (t : Fin cfg0.N) (x : S1024x1024.Idx) (k : S4096x1024.Idx)
    (hk0 : (k 0).val = 1024 * t.val + (x 0).val) (hk1 : (k 1).val = (x 1).val) :
    (iblk0 (F := Ideal) V c 0 t : Vec Ideal S1024x1024 .bf16) x = (V c main_v1 : S4096x1024.Idx → EReal) k := by
  obtain ⟨e0, e1⟩ := proj_rows_idx t
  unfold iblk0
  rw [View.read_apply]
  show V c main_v1 _ = V c main_v1 _
  congr 1
  funext a
  apply Fin.ext
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-! ## The query projection: the first region's first output window -/

/-- Over the grid, its weight and bias windows stay at block `(0, 0)` and its output window is at block `(t, 0)`. -/
theorem q_idx : ∀ t : Fin cfg0.N,
    win0_1.index t (0 : Fin 2) = 0 ∧ win0_1.index t (1 : Fin 2) = 0
    ∧ win0_2.index t (0 : Fin 2) = 0 ∧ win0_2.index t (1 : Fin 2) = 0
    ∧ win0_7.index t (0 : Fin 2) = t.val ∧ win0_7.index t (1 : Fin 2) = 0 :=
  (by decide +kernel : ∀ t : Fin grid0.N, _)

/-- The weight window's block is the whole weight array at every point. -/
theorem q_weights_apply (c : Dev nD) (t : Fin cfg0.N) (x k : S1024x1024.Idx)
    (hk0 : (k 0).val = (x 0).val) (hk1 : (k 1).val = (x 1).val) :
    (iblk0 (F := Ideal) V c 1 t : Vec Ideal S1024x1024 .bf16) x = (V c main_v2 : S1024x1024.Idx → EReal) k := by
  obtain ⟨e0, e1, -⟩ := q_idx t
  unfold iblk0
  rw [View.read_apply]
  show V c main_v2 _ = V c main_v2 _
  congr 1
  funext a
  apply Fin.ext
  match a with
  | ⟨0, _⟩ => show win0_1.index t 0 * 1024 + 1 * (x 0).val = (k 0).val; rw [e0, hk0]; omega
  | ⟨1, _⟩ => show win0_1.index t 1 * 1024 + 1 * (x 1).val = (k 1).val; rw [e1, hk1]; omega

/-- The bias window's block is the whole one-row bias at every point. -/
theorem q_bias_apply (c : Dev nD) (t : Fin cfg0.N) (x k : S1x1024.Idx)
    (hk0 : (k 0).val = (x 0).val) (hk1 : (k 1).val = (x 1).val) :
    (iblk0 (F := Ideal) V c 2 t : Vec Ideal S1x1024 .f32) x = (V c main_v6 : S1x1024.Idx → EReal) k := by
  obtain ⟨-, -, e2, e3, -⟩ := q_idx t
  unfold iblk0
  rw [View.read_apply]
  show V c main_v6 _ = V c main_v6 _
  congr 1
  funext a
  apply Fin.ext
  match a with
  | ⟨0, _⟩ => show win0_2.index t 0 * 1 + 1 * (x 0).val = (k 0).val; rw [e2, hk0]; omega
  | ⟨1, _⟩ => show win0_2.index t 1 * 1024 + 1 * (x 1).val = (k 1).val; rw [e3, hk1]; omega

/-- What point `t` writes back is block `t` of `linRows` of the arrays the region found. -/
theorem q_flushed (c : Dev nD) (t : Fin cfg0.N) :
    (dat0 (F := Ideal) V c).flushed 7 t
      = ((cfg0.win 7).blk t).view.read (Elt Ideal) (linRows (V c main_v1) (V c main_v2) (V c main_v6)) := by
  show (cfg0.win 7).cut (grid0.coords t) ((dat0 V c).after 7 t) = _
  rw [after0_7]
  unfold out0_7
  rw [View.canon_unit_zero offsets_zero]
  simp only [View.ld_unit_zero (S := S1024x1024) offsets_zero, View.ld_unit_zero (S := S1x1024) offsets_zero]
  obtain ⟨-, -, -, -, e4, e5⟩ := q_idx t
  funext j
  have h0 : ((((cfg0.win 7).blk t).view.emb j) 0).val = 1024 * t.val + (j 0).val := by
    show win0_7.index t 0 * 1024 + 1 * (j 0).val = _
    rw [e4]; omega
  have h1 : ((((cfg0.win 7).blk t).view.emb j) 1).val = (j 1).val := by
    show win0_7.index t 1 * 1024 + 1 * (j 1).val = _
    rw [e5]; omega
  refine block_eq (V c main_v1) (V c main_v2) (V c main_v6) (iblk0 V c 0 t) (iblk0 V c 1 t) (iblk0 V c 2 t)
    (k0_pay2 (iblk0 V c 0 t) (iblk0 V c 1 t) (iblk0 V c 2 t))
    (query_block_apply (iblk0 V c 0 t) (iblk0 V c 1 t) (iblk0 V c 2 t)) j
    (((cfg0.win 7).blk t).view.emb j) (fun k => ?_) (fun k => ?_) ?_
  · exact proj_rows_apply V c t (ix2 (j 0) k) (ix2 ((((cfg0.win 7).blk t).view.emb j) 0) k) h0 rfl
  · exact q_weights_apply V c t (ix2 (j 1) k) (ix2 ((((cfg0.win 7).blk t).view.emb j) 1) k) h1 rfl
  · exact q_bias_apply V c t (ix2 0 (j 1)) (ix2 0 ((((cfg0.win 7).blk t).view.emb j) 1)) rfl h1

/-- An index of the matrix is in point `t`'s block iff each coordinate is in the block's range on its axis. -/
theorem q_mem_blk (t : Fin cfg0.N) (i : S4096x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v10_0).slice (win0_7.rect t)).set ↔ _
  rw [View.set_slice_whole, Rect.mem_set_unit]
  exact Iff.rfl

/-- The four row blocks tile the matrix: row `r` is in the block of point `r / 1024`. -/
theorem q_cover (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : grid0.N = 4 := N_0
  have ht : (i 0).val / 1024 < cfg0.N := by show _ < grid0.N; rw [hN]; omega
  obtain ⟨-, -, -, -, e4, e5⟩ := q_idx ⟨(i 0).val / 1024, ht⟩
  refine ⟨⟨(i 0).val / 1024, ht⟩, flush0_7 _, ?_⟩
  rw [q_mem_blk]
  intro a
  match a with
  | ⟨0, _⟩ =>
    show win0_7.index ⟨(i 0).val / 1024, ht⟩ 0 * 1024 ≤ (i 0).val
      ∧ (i 0).val < win0_7.index ⟨(i 0).val / 1024, ht⟩ 0 * 1024 + 1024
    rw [e4]
    show (i 0).val / 1024 * 1024 ≤ (i 0).val ∧ (i 0).val < (i 0).val / 1024 * 1024 + 1024
    omega
  | ⟨1, _⟩ =>
    show win0_7.index ⟨(i 0).val / 1024, ht⟩ 1 * 1024 ≤ (i 1).val
      ∧ (i 1).val < win0_7.index ⟨(i 0).val / 1024, ht⟩ 1 * 1024 + 1024
    rw [e5]
    omega

/-- The query projection's array after the first region. -/
theorem final_q (c : Dev nD) :
    (dat0 (F := Ideal) V c).arrAt 7 cfg0.N = linRows (V c main_v1) (V c main_v2) (V c main_v6) :=
  (dat0 (F := Ideal) V c).arrAt_eq_of_cover 7 (linRows (V c main_v1) (V c main_v2) (V c main_v6))
    (fun t _ => q_flushed V c t) q_cover

/-! ## The key projection: the first region's second output window -/

/-- Over the grid, its weight and bias windows stay at block `(0, 0)` and its output window is at block `(t, 0)`. -/
theorem k_idx : ∀ t : Fin cfg0.N,
    win0_3.index t (0 : Fin 2) = 0 ∧ win0_3.index t (1 : Fin 2) = 0
    ∧ win0_4.index t (0 : Fin 2) = 0 ∧ win0_4.index t (1 : Fin 2) = 0
    ∧ win0_8.index t (0 : Fin 2) = t.val ∧ win0_8.index t (1 : Fin 2) = 0 :=
  (by decide +kernel : ∀ t : Fin grid0.N, _)

/-- The weight window's block is the whole weight array at every point. -/
theorem k_weights_apply (c : Dev nD) (t : Fin cfg0.N) (x k : S1024x1024.Idx)
    (hk0 : (k 0).val = (x 0).val) (hk1 : (k 1).val = (x 1).val) :
    (iblk0 (F := Ideal) V c 3 t : Vec Ideal S1024x1024 .bf16) x = (V c main_v3 : S1024x1024.Idx → EReal) k := by
  obtain ⟨e0, e1, -⟩ := k_idx t
  unfold iblk0
  rw [View.read_apply]
  show V c main_v3 _ = V c main_v3 _
  congr 1
  funext a
  apply Fin.ext
  match a with
  | ⟨0, _⟩ => show win0_3.index t 0 * 1024 + 1 * (x 0).val = (k 0).val; rw [e0, hk0]; omega
  | ⟨1, _⟩ => show win0_3.index t 1 * 1024 + 1 * (x 1).val = (k 1).val; rw [e1, hk1]; omega

/-- The bias window's block is the whole one-row bias at every point. -/
theorem k_bias_apply (c : Dev nD) (t : Fin cfg0.N) (x k : S1x1024.Idx)
    (hk0 : (k 0).val = (x 0).val) (hk1 : (k 1).val = (x 1).val) :
    (iblk0 (F := Ideal) V c 4 t : Vec Ideal S1x1024 .f32) x = (V c main_v7 : S1x1024.Idx → EReal) k := by
  obtain ⟨-, -, e2, e3, -⟩ := k_idx t
  unfold iblk0
  rw [View.read_apply]
  show V c main_v7 _ = V c main_v7 _
  congr 1
  funext a
  apply Fin.ext
  match a with
  | ⟨0, _⟩ => show win0_4.index t 0 * 1 + 1 * (x 0).val = (k 0).val; rw [e2, hk0]; omega
  | ⟨1, _⟩ => show win0_4.index t 1 * 1024 + 1 * (x 1).val = (k 1).val; rw [e3, hk1]; omega

/-- What point `t` writes back is block `t` of `linRows` of the arrays the region found. -/
theorem k_flushed (c : Dev nD) (t : Fin cfg0.N) :
    (dat0 (F := Ideal) V c).flushed 8 t
      = ((cfg0.win 8).blk t).view.read (Elt Ideal) (linRows (V c main_v1) (V c main_v3) (V c main_v7)) := by
  show (cfg0.win 8).cut (grid0.coords t) ((dat0 V c).after 8 t) = _
  rw [after0_8]
  unfold out0_8
  rw [View.canon_unit_zero offsets_zero]
  simp only [View.ld_unit_zero (S := S1024x1024) offsets_zero, View.ld_unit_zero (S := S1x1024) offsets_zero]
  obtain ⟨-, -, -, -, e4, e5⟩ := k_idx t
  funext j
  have h0 : ((((cfg0.win 8).blk t).view.emb j) 0).val = 1024 * t.val + (j 0).val := by
    show win0_8.index t 0 * 1024 + 1 * (j 0).val = _
    rw [e4]; omega
  have h1 : ((((cfg0.win 8).blk t).view.emb j) 1).val = (j 1).val := by
    show win0_8.index t 1 * 1024 + 1 * (j 1).val = _
    rw [e5]; omega
  refine block_eq (V c main_v1) (V c main_v3) (V c main_v7) (iblk0 V c 0 t) (iblk0 V c 3 t) (iblk0 V c 4 t)
    (k0_pay3 (iblk0 V c 0 t) (iblk0 V c 3 t) (iblk0 V c 4 t))
    (key_block_apply (iblk0 V c 0 t) (iblk0 V c 3 t) (iblk0 V c 4 t)) j
    (((cfg0.win 8).blk t).view.emb j) (fun k => ?_) (fun k => ?_) ?_
  · exact proj_rows_apply V c t (ix2 (j 0) k) (ix2 ((((cfg0.win 8).blk t).view.emb j) 0) k) h0 rfl
  · exact k_weights_apply V c t (ix2 (j 1) k) (ix2 ((((cfg0.win 8).blk t).view.emb j) 1) k) h1 rfl
  · exact k_bias_apply V c t (ix2 0 (j 1)) (ix2 0 ((((cfg0.win 8).blk t).view.emb j) 1)) rfl h1

/-- An index of the matrix is in point `t`'s block iff each coordinate is in the block's range on its axis. -/
theorem k_mem_blk (t : Fin cfg0.N) (i : S4096x1024.Idx) :
    i ∈ ((cfg0.win 8).blk t).view.set ↔ ∀ a : Fin 2, win0_8.index t a * S1024x1024.size a ≤ (i a).val
      ∧ (i a).val < win0_8.index t a * S1024x1024.size a + S1024x1024.size a := by
  show i ∈ ((View.whole main_v10_1).slice (win0_8.rect t)).set ↔ _
  rw [View.set_slice_whole, Rect.mem_set_unit]
  exact Iff.rfl

/-- The four row blocks tile the matrix: row `r` is in the block of point `r / 1024`. -/
theorem k_cover (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  have hN : grid0.N = 4 := N_0
  have ht : (i 0).val / 1024 < cfg0.N := by show _ < grid0.N; rw [hN]; omega
  obtain ⟨-, -, -, -, e4, e5⟩ := k_idx ⟨(i 0).val / 1024, ht⟩
  refine ⟨⟨(i 0).val / 1024, ht⟩, flush0_8 _, ?_⟩
  rw [k_mem_blk]
  intro a
  match a with
  | ⟨0, _⟩ =>
    show win0_8.index ⟨(i 0).val / 1024, ht⟩ 0 * 1024 ≤ (i 0).val
      ∧ (i 0).val < win0_8.index ⟨(i 0).val / 1024, ht⟩ 0 * 1024 + 1024
    rw [e4]
    show (i 0).val / 1024 * 1024 ≤ (i 0).val ∧ (i 0).val < (i 0).val / 1024 * 1024 + 1024
    omega
  | ⟨1, _⟩ =>
    show win0_8.index ⟨(i 0).val / 1024, ht⟩ 1 * 1024 ≤ (i 1).val
      ∧ (i 1).val < win0_8.index ⟨(i 0).val / 1024, ht⟩ 1 * 1024 + 1024
    rw [e5]
    omega

/-- The key projection's array after the first region. -/
theorem final_k (c : Dev nD) :
    (dat0 (F := Ideal) V c).arrAt 8 cfg0.N = linRows (V c main_v1) (V c main_v3) (V c main_v7) :=
  (dat0 (F := Ideal) V c).arrAt_eq_of_cover 8 (linRows (V c main_v1) (V c main_v3) (V c main_v7))
    (fun t _ => k_flushed V c t) k_cover

/-! ## The value projection: the first region's third output window -/

/-- Over the grid, its weight and bias windows stay at block `(0, 0)` and its output window is at block `(t, 0)`. -/
theorem v_idx : ∀ t : Fin cfg0.N,
    win0_5.index t (0 : Fin 2) = 0 ∧ win0_5.index t (1 : Fin 2) = 0
    ∧ win0_6.index t (0 : Fin 2) = 0 ∧ win0_6.index t (1 : Fin 2) = 0
    ∧ win0_9.index t (0 : Fin 2) = t.val ∧ win0_9.index t (1 : Fin 2) = 0 :=
  (by decide +kernel : ∀ t : Fin grid0.N, _)

/-- The weight window's block is the whole weight array at every point. -/
theorem v_weights_apply (c : Dev nD) (t : Fin cfg0.N) (x k : S1024x1024.Idx)
    (hk0 : (k 0).val = (x 0).val) (hk1 : (k 1).val = (x 1).val) :
    (iblk0 (F := Ideal) V c 5 t : Vec Ideal S1024x1024 .bf16) x = (V c main_v4 : S1024x1024.Idx → EReal) k := by
  obtain ⟨e0, e1, -⟩ := v_idx t
  unfold iblk0
  rw [View.read_apply]
  show V c main_v4 _ = V c main_v4 _
  congr 1
  funext a
  apply Fin.ext
  match a with
  | ⟨0, _⟩ => show win0_5.index t 0 * 1024 + 1 * (x 0).val = (k 0).val; rw [e0, hk0]; omega
  | ⟨1, _⟩ => show win0_5.index t 1 * 1024 + 1 * (x 1).val = (k 1).val; rw [e1, hk1]; omega

/-- The bias window's block is the whole one-row bias at every point. -/
theorem v_bias_apply (c : Dev nD) (t : Fin cfg0.N) (x k : S1x1024.Idx)
    (hk0 : (k 0).val = (x 0).val) (hk1 : (k 1).val = (x 1).val) :
    (iblk0 (F := Ideal) V c 6 t : Vec Ideal S1x1024 .f32) x = (V c main_v8 : S1x1024.Idx → EReal) k := by
  obtain ⟨-, -, e2, e3, -⟩ := v_idx t
  unfold iblk0
  rw [View.read_apply]
  show V c main_v8 _ = V c main_v8 _
  congr 1
  funext a
  apply Fin.ext
  match a with
  | ⟨0, _⟩ => show win0_6.index t 0 * 1 + 1 * (x 0).val = (k 0).val; rw [e2, hk0]; omega
  | ⟨1, _⟩ => show win0_6.index t 1 * 1024 + 1 * (x 1).val = (k 1).val; rw [e3, hk1]; omega

/-- What point `t` writes back is block `t` of `linRows` of the arrays the region found. -/
theorem v_flushed (c : Dev nD) (t : Fin cfg0.N) :
    (dat0 (F := Ideal) V c).flushed 9 t
      = ((cfg0.win 9).blk t).view.read (Elt Ideal) (linRows (V c main_v1) (V c main_v4) (V c main_v8)) := by
  show (cfg0.win 9).cut (grid0.coords t) ((dat0 V c).after 9 t) = _
  rw [after0_9]
  unfold out0_9
  rw [View.canon_unit_zero offsets_zero]
  simp only [View.ld_unit_zero (S := S1024x1024) offsets_zero, View.ld_unit_zero (S := S1x1024) offsets_zero]
  obtain ⟨-, -, -, -, e4, e5⟩ := v_idx t
  funext j
  have h0 : ((((cfg0.win 9).blk t).view.emb j) 0).val = 1024 * t.val + (j 0).val := by
    show win0_9.index t 0 * 1024 + 1 * (j 0).val = _
    rw [e4]; omega
  have h1 : ((((cfg0.win 9).blk t).view.emb j) 1).val = (j 1).val := by
    show win0_9.index t 1 * 1024 + 1 * (j 1).val = _
    rw [e5]; omega
  refine block_eq (V c main_v1) (V c main_v4) (V c main_v8) (iblk0 V c 0 t) (iblk0 V c 5 t) (iblk0 V c 6 t)
    (k0_pay4 (iblk0 V c 0 t) (iblk0 V c 5 t) (iblk0 V c 6 t))
    (value_block_apply (iblk0 V c 0 t) (iblk0 V c 5 t) (iblk0 V c 6 t)) j
    (((cfg0.win 9).blk t).view.emb j) (fun k => ?_) (fun k => ?_) ?_
  · exact proj_rows_apply V c t (ix2 (j 0) k) (ix2 ((((cfg0.win 9).blk t).view.emb j) 0) k) h0 rfl
  · exact v_weights_apply V c t (ix2 (j 1) k) (ix2 ((((cfg0.win 9).blk t).view.emb j) 1) k) h1 rfl
  · exact v_bias_apply V c t (ix2 0 (j 1)) (ix2 0 ((((cfg0.win 9).blk t).view.emb j) 1)) rfl h1

/-- An index of the matrix is in point `t`'s block iff each coordinate is in the block's range on its axis. -/
theorem v_mem_blk (t : Fin cfg0.N) (i : S4096x1024.Idx) :
    i ∈ ((cfg0.win 9).blk t).view.set ↔ ∀ a : Fin 2, win0_9.index t a * S1024x1024.size a ≤ (i a).val
      ∧ (i a).val < win0_9.index t a * S1024x1024.size a + S1024x1024.size a := by
  show i ∈ ((View.whole main_v10_2).slice (win0_9.rect t)).set ↔ _
  rw [View.set_slice_whole, Rect.mem_set_unit]
  exact Iff.rfl

/-- The four row blocks tile the matrix: row `r` is in the block of point `r / 1024`. -/
theorem v_cover (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  have hN : grid0.N = 4 := N_0
  have ht : (i 0).val / 1024 < cfg0.N := by show _ < grid0.N; rw [hN]; omega
  obtain ⟨-, -, -, -, e4, e5⟩ := v_idx ⟨(i 0).val / 1024, ht⟩
  refine ⟨⟨(i 0).val / 1024, ht⟩, flush0_9 _, ?_⟩
  rw [v_mem_blk]
  intro a
  match a with
  | ⟨0, _⟩ =>
    show win0_9.index ⟨(i 0).val / 1024, ht⟩ 0 * 1024 ≤ (i 0).val
      ∧ (i 0).val < win0_9.index ⟨(i 0).val / 1024, ht⟩ 0 * 1024 + 1024
    rw [e4]
    show (i 0).val / 1024 * 1024 ≤ (i 0).val ∧ (i 0).val < (i 0).val / 1024 * 1024 + 1024
    omega
  | ⟨1, _⟩ =>
    show win0_9.index ⟨(i 0).val / 1024, ht⟩ 1 * 1024 ≤ (i 1).val
      ∧ (i 1).val < win0_9.index ⟨(i 0).val / 1024, ht⟩ 1 * 1024 + 1024
    rw [e5]
    omega

/-- The value projection's array after the first region. -/
theorem final_v (c : Dev nD) :
    (dat0 (F := Ideal) V c).arrAt 9 cfg0.N = linRows (V c main_v1) (V c main_v4) (V c main_v8) :=
  (dat0 (F := Ideal) V c).arrAt_eq_of_cover 9 (linRows (V c main_v1) (V c main_v4) (V c main_v8))
    (fun t _ => v_flushed V c t) v_cover

/-! ## The third region: the output layer's row window -/

/-- Over the grid, the row window of the third region is at block `(t, 0)`. -/
theorem out_rows_idx : ∀ t : Fin cfg2.N, win2_0.index t (0 : Fin 2) = t.val ∧ win2_0.index t (1 : Fin 2) = 0 :=
  (by decide +kernel : ∀ t : Fin grid2.N, _)

/-- The row window's block at point `t` is rows `1024·t … 1024·t + 1023` of its array. -/
theorem out_rows_apply (c : Dev nD) (t : Fin cfg2.N) (x : S1024x1024.Idx) (k : S4096x1024.Idx)
    (hk0 : (k 0).val = 1024 * t.val + (x 0).val) (hk1 : (k 1).val = (x 1).val) :
    (iblk2 (F := Ideal) V c 0 t : Vec Ideal S1024x1024 .bf16) x = (V c main_v20 : S4096x1024.Idx → EReal) k := by
  obtain ⟨e0, e1⟩ := out_rows_idx t
  unfold iblk2
  rw [View.read_apply]
  show V c main_v20 _ = V c main_v20 _
  congr 1
  funext a
  apply Fin.ext
  match a with
  | ⟨0, _⟩ => show win2_0.index t 0 * 1024 + 1 * (x 0).val = (k 0).val; rw [e0, hk0]; omega
  | ⟨1, _⟩ => show win2_0.index t 1 * 1024 + 1 * (x 1).val = (k 1).val; rw [e1, hk1]; omega

/-! ## The output layer: the third region's output window -/

/-- Over the grid, its weight and bias windows stay at block `(0, 0)` and its output window is at block `(t, 0)`. -/
theorem out_idx : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The weight window's block is the whole weight array at every point. -/
theorem out_weights_apply (c : Dev nD) (t : Fin cfg2.N) (x k : S1024x1024.Idx)
    (hk0 : (k 0).val = (x 0).val) (hk1 : (k 1).val = (x 1).val) :
    (iblk2 (F := Ideal) V c 1 t : Vec Ideal S1024x1024 .bf16) x = (V c main_v5 : S1024x1024.Idx → EReal) k := by
  obtain ⟨e0, e1, -⟩ := out_idx t
  unfold iblk2
  rw [View.read_apply]
  show V c main_v5 _ = V c main_v5 _
  congr 1
  funext a
  apply Fin.ext
  match a with
  | ⟨0, _⟩ => show win2_1.index t 0 * 1024 + 1 * (x 0).val = (k 0).val; rw [e0, hk0]; omega
  | ⟨1, _⟩ => show win2_1.index t 1 * 1024 + 1 * (x 1).val = (k 1).val; rw [e1, hk1]; omega

/-- The bias window's block is the whole one-row bias at every point. -/
theorem out_bias_apply (c : Dev nD) (t : Fin cfg2.N) (x k : S1x1024.Idx)
    (hk0 : (k 0).val = (x 0).val) (hk1 : (k 1).val = (x 1).val) :
    (iblk2 (F := Ideal) V c 2 t : Vec Ideal S1x1024 .f32) x = (V c main_v9 : S1x1024.Idx → EReal) k := by
  obtain ⟨-, -, e2, e3, -⟩ := out_idx t
  unfold iblk2
  rw [View.read_apply]
  show V c main_v9 _ = V c main_v9 _
  congr 1
  funext a
  apply Fin.ext
  match a with
  | ⟨0, _⟩ => show win2_2.index t 0 * 1 + 1 * (x 0).val = (k 0).val; rw [e2, hk0]; omega
  | ⟨1, _⟩ => show win2_2.index t 1 * 1024 + 1 * (x 1).val = (k 1).val; rw [e3, hk1]; omega

/-- What point `t` writes back is block `t` of `linRows` of the arrays the region found. -/
theorem out_flushed (c : Dev nD) (t : Fin cfg2.N) :
    (dat2 (F := Ideal) V c).flushed 3 t
      = ((cfg2.win 3).blk t).view.read (Elt Ideal) (linRows (V c main_v20) (V c main_v5) (V c main_v9)) := by
  show (cfg2.win 3).cut (grid2.coords t) ((dat2 V c).after 3 t) = _
  rw [after2_3]
  unfold out2_3
  rw [View.canon_unit_zero offsets_zero]
  simp only [View.ld_unit_zero (S := S1024x1024) offsets_zero, View.ld_unit_zero (S := S1x1024) offsets_zero]
  obtain ⟨-, -, -, -, e4, e5⟩ := out_idx t
  funext j
  have h0 : ((((cfg2.win 3).blk t).view.emb j) 0).val = 1024 * t.val + (j 0).val := by
    show win2_3.index t 0 * 1024 + 1 * (j 0).val = _
    rw [e4]; omega
  have h1 : ((((cfg2.win 3).blk t).view.emb j) 1).val = (j 1).val := by
    show win2_3.index t 1 * 1024 + 1 * (j 1).val = _
    rw [e5]; omega
  refine block_eq (V c main_v20) (V c main_v5) (V c main_v9) (iblk2 V c 0 t) (iblk2 V c 1 t) (iblk2 V c 2 t)
    (k2_pay1 (iblk2 V c 0 t) (iblk2 V c 1 t) (iblk2 V c 2 t))
    (out_block_apply (iblk2 V c 0 t) (iblk2 V c 1 t) (iblk2 V c 2 t)) j
    (((cfg2.win 3).blk t).view.emb j) (fun k => ?_) (fun k => ?_) ?_
  · exact out_rows_apply V c t (ix2 (j 0) k) (ix2 ((((cfg2.win 3).blk t).view.emb j) 0) k) h0 rfl
  · exact out_weights_apply V c t (ix2 (j 1) k) (ix2 ((((cfg2.win 3).blk t).view.emb j) 1) k) h1 rfl
  · exact out_bias_apply V c t (ix2 0 (j 1)) (ix2 0 ((((cfg2.win 3).blk t).view.emb j) 1)) rfl h1

/-- An index of the matrix is in point `t`'s block iff each coordinate is in the block's range on its axis. -/
theorem out_mem_blk (t : Fin cfg2.N) (i : S4096x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v21).slice (win2_3.rect t)).set ↔ _
  rw [View.set_slice_whole, Rect.mem_set_unit]
  exact Iff.rfl

/-- The four row blocks tile the matrix: row `r` is in the block of point `r / 1024`. -/
theorem out_cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : grid2.N = 4 := N_2
  have ht : (i 0).val / 1024 < cfg2.N := by show _ < grid2.N; rw [hN]; omega
  obtain ⟨-, -, -, -, e4, e5⟩ := out_idx ⟨(i 0).val / 1024, ht⟩
  refine ⟨⟨(i 0).val / 1024, ht⟩, flush2_3 _, ?_⟩
  rw [out_mem_blk]
  intro a
  match a with
  | ⟨0, _⟩ =>
    show win2_3.index ⟨(i 0).val / 1024, ht⟩ 0 * 1024 ≤ (i 0).val
      ∧ (i 0).val < win2_3.index ⟨(i 0).val / 1024, ht⟩ 0 * 1024 + 1024
    rw [e4]
    show (i 0).val / 1024 * 1024 ≤ (i 0).val ∧ (i 0).val < (i 0).val / 1024 * 1024 + 1024
    omega
  | ⟨1, _⟩ =>
    show win2_3.index ⟨(i 0).val / 1024, ht⟩ 1 * 1024 ≤ (i 1).val
      ∧ (i 1).val < win2_3.index ⟨(i 0).val / 1024, ht⟩ 1 * 1024 + 1024
    rw [e5]
    omega

/-- The output layer's array after the third region. -/
theorem final_out (c : Dev nD) :
    (dat2 (F := Ideal) V c).arrAt 3 cfg2.N = linRows (V c main_v20) (V c main_v5) (V c main_v9) :=
  (dat2 (F := Ideal) V c).arrAt_eq_of_cover 3 (linRows (V c main_v20) (V c main_v5) (V c main_v9))
    (fun t _ => out_flushed V c t) out_cover

end Cert.KernelIdeal.Proj

end
-- ==== Proof.AttnBlocks.lean ====
/-
  The attention region, one (batch, head) pair per grid point. The point's three blocks are the
  `[2048, 64]` matrices `Q`, `K`, `V` of that pair; the body forms the scores `Σ_k Q[l, k] · K[s, k]`
  (a product into a zero accumulator), keeps a score where the row index is at least the column index and
  puts `0` elsewhere, and multiplies by `V`, again into a zero accumulator. The 32 blocks tile the
  `[2, 16, 2048, 64]` array, so it ends as `causalAttn` of the three arrays the region found.
-/
import proofs.«161519_j51771535786580_1_alg».proof.Proof.Gen.KernelIdeal.Frame
import proofs.«161519_j51771535786580_1_alg».proof.Proof.LinAttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Attn

open Idealize.ShloMosaic Idealize.ShloMosaic.TcCoe Idealize.SL.Sem Idealize.ShloMosaic.ValueIdx
open Cert.KernelIdeal Cert.KernelIdeal.Gen Cert.LinAttn

/-- Two 32-bit words of naturals below 2048 compare, as signed numbers, as the naturals do. -/
theorem sge_word (l s : Fin 2048) :
    IntOp.cmpi .sge (BitVec.ofNat 32 l.val) (BitVec.ofNat 32 s.val) = if s.val ≤ l.val then 1#1 else 0#1 := by
  have hl := l.isLt
  have hs := s.isLt
  have toInt_small : ∀ n : Nat, n < 2048 → (BitVec.ofNat 32 n).toInt = (n : Int) := by
    intro n hn
    rw [BitVec.toInt_eq_toNat_of_lt (by rw [BitVec.toNat_ofNat]; omega), BitVec.toNat_ofNat]
    omega
  have e : (BitVec.ofNat 32 s.val).sle (BitVec.ofNat 32 l.val) = decide (s.val ≤ l.val) := by
    rw [BitVec.sle_eq_decide, toInt_small _ hs, toInt_small _ hl]
    simp
  show BitVec.ofBool ((BitVec.ofNat 32 s.val).sle (BitVec.ofNat 32 l.val)) = _
  rw [e]
  by_cases h : s.val ≤ l.val
  · rw [if_pos h, decide_eq_true h]; rfl
  · rw [if_neg h, decide_eq_false h]; rfl

/-! ## The body's layout operations at an index -/

/-- The cast that drops the two unit axes reads `(0, 0, l, d)` at `(l, d)`. -/
theorem castDown_apply {α : Type} (x : S1x1x2048x64.Idx → α) (l : Fin 2048) (d : Fin 64) :
    shapeCast S2048x64 x shapeCasts_S1x1x2048x64_S2048x64 (ix2 l d) = x (ix4 (0 : Fin 1) (0 : Fin 1) l d) :=
  shapeCast_apply x shapeCasts_S1x1x2048x64_S2048x64 (ix2 l d) (ix4 (0 : Fin 1) (0 : Fin 1) l d) (by
    rw [Shape.rowMajor_val_two, Shape.rowMajor_val_four]
    show ((0 * 1 + 0) * 2048 + l.val) * 64 + d.val = l.val * 64 + d.val
    omega)

/-- The cast that puts the two unit axes back reads `(l, d)` at `(0, 0, l, d)`. -/
theorem castUp_apply {α : Type} (y : S2048x64.Idx → α) (l : Fin 2048) (d : Fin 64) :
    shapeCast S1x1x2048x64 y shapeCasts_S2048x64_S1x1x2048x64 (ix4 (0 : Fin 1) (0 : Fin 1) l d) = y (ix2 l d) :=
  shapeCast_apply y shapeCasts_S2048x64_S1x1x2048x64 (ix4 (0 : Fin 1) (0 : Fin 1) l d) (ix2 l d) (by
    rw [Shape.rowMajor_val_two, Shape.rowMajor_val_four]
    show l.val * 64 + d.val = ((0 * 1 + 0) * 2048 + l.val) * 64 + d.val
    omega)

/-! ## The two products at an index -/

/-- The scores: row `l` of the first operand against row `s` of the second, over the 64 columns. -/
theorem scores_apply (a b : FVec Ideal S2048x64 .bf16) (l s : Fin 2048) :
    FloatOps.matmul dot_S2048x64_S2048x64_S2048x2048_1_1_0_0_n_n none a b (constant S2048x2048 .f32 0x00000000#32) (ix2 l s)
      = ∑ k : Fin 64, a (ix2 l k) * b (ix2 s k) := by
  rw [Ideal.matmul_constant_zero_apply,
    ← Equiv.sum_comp (contrEquiv1 dot_S2048x64_S2048x64_S2048x2048_1_1_0_0_n_n 64 rfl rfl).symm]
  refine Finset.sum_congr rfl fun k _ => ?_
  have hk := contrEquiv1_symm_val dot_S2048x64_S2048x64_S2048x2048_1_1_0_0_n_n 64 rfl rfl k
  have el : dot_S2048x64_S2048x64_S2048x2048_1_1_0_0_n_n.lhsIdx (ix2 l s)
      ((contrEquiv1 dot_S2048x64_S2048x64_S2048x2048_1_1_0_0_n_n 64 rfl rfl).symm k) = ix2 l k :=
    funext fun c => Fin.ext (by
      match c with
      | ⟨0, _⟩ =>
        show (dot_S2048x64_S2048x64_S2048x2048_1_1_0_0_n_n.lhsIdx (ix2 l s) _ 0).val = l.val
        unfold DotDims.lhsIdx
        rw [dif_neg (show ¬(0 : Fin S2048x64.rank) ∈ dot_S2048x64_S2048x64_S2048x2048_1_1_0_0_n_n.lhsBatch by decide),
          dif_pos (show (0 : Fin S2048x64.rank) ∈ dot_S2048x64_S2048x64_S2048x2048_1_1_0_0_n_n.lhsNonContracting by decide)]
        rfl
      | ⟨1, _⟩ => exact (dot_S2048x64_S2048x64_S2048x2048_1_1_0_0_n_n.lhsIdx_val_of_single rfl _ _).trans hk)
  have er : dot_S2048x64_S2048x64_S2048x2048_1_1_0_0_n_n.rhsIdx (ix2 l s)
      ((contrEquiv1 dot_S2048x64_S2048x64_S2048x2048_1_1_0_0_n_n 64 rfl rfl).symm k) = ix2 s k :=
    funext fun c => Fin.ext (by
      match c with
      | ⟨0, _⟩ =>
        show (dot_S2048x64_S2048x64_S2048x2048_1_1_0_0_n_n.rhsIdx (ix2 l s) _ 0).val = s.val
        unfold DotDims.rhsIdx
        rw [dif_neg (show ¬(0 : Fin S2048x64.rank) ∈ dot_S2048x64_S2048x64_S2048x2048_1_1_0_0_n_n.rhsBatch by decide),
          dif_pos (show (0 : Fin S2048x64.rank) ∈ dot_S2048x64_S2048x64_S2048x2048_1_1_0_0_n_n.rhsNonContracting by decide)]
        rfl
      | ⟨1, _⟩ => exact (dot_S2048x64_S2048x64_S2048x2048_1_1_0_0_n_n.rhsIdx_val_of_single rfl _ _).trans hk)
  rw [el, er]

/-- The second product: row `l` of the masked scores against column `d` of the third matrix, over the 2048 positions. -/
theorem weighted_apply (p : FVec Ideal S2048x2048 .bf16) (b : FVec Ideal S2048x64 .bf16) (l : Fin 2048) (d : Fin 64) :
    FloatOps.matmul dot_S2048x2048_S2048x64_S2048x64_1_0_0_1_n_n none p b (constant S2048x64 .f32 0x00000000#32) (ix2 l d)
      = ∑ s : Fin 2048, p (ix2 l s) * b (ix2 s d) := by
  rw [Ideal.matmul_constant_zero_apply,
    ← Equiv.sum_comp (contrEquiv1 dot_S2048x2048_S2048x64_S2048x64_1_0_0_1_n_n 2048 rfl rfl).symm]
  refine Finset.sum_congr rfl fun s _ => ?_
  have hs := contrEquiv1_symm_val dot_S2048x2048_S2048x64_S2048x64_1_0_0_1_n_n 2048 rfl rfl s
  have el : dot_S2048x2048_S2048x64_S2048x64_1_0_0_1_n_n.lhsIdx (ix2 l d)
      ((contrEquiv1 dot_S2048x2048_S2048x64_S2048x64_1_0_0_1_n_n 2048 rfl rfl).symm s) = ix2 l s :=
    funext fun c => Fin.ext (by
      match c with
      | ⟨0, _⟩ =>
        show (dot_S2048x2048_S2048x64_S2048x64_1_0_0_1_n_n.lhsIdx (ix2 l d) _ 0).val = l.val
        unfold DotDims.lhsIdx
        rw [dif_neg (show ¬(0 : Fin S2048x2048.rank) ∈ dot_S2048x2048_S2048x64_S2048x64_1_0_0_1_n_n.lhsBatch by decide),
          dif_pos (show (0 : Fin S2048x2048.rank) ∈ dot_S2048x2048_S2048x64_S2048x64_1_0_0_1_n_n.lhsNonContracting by decide)]
        rfl
      | ⟨1, _⟩ => exact (dot_S2048x2048_S2048x64_S2048x64_1_0_0_1_n_n.lhsIdx_val_of_single rfl _ _).trans hs)
  have er : dot_S2048x2048_S2048x64_S2048x64_1_0_0_1_n_n.rhsIdx (ix2 l d)
      ((contrEquiv1 dot_S2048x2048_S2048x64_S2048x64_1_0_0_1_n_n 2048 rfl rfl).symm s) = ix2 s d :=
    funext fun c => Fin.ext (by
      match c with
      | ⟨0, _⟩ => exact (dot_S2048x2048_S2048x64_S2048x64_1_0_0_1_n_n.rhsIdx_val_of_single rfl _ _).trans hs
      | ⟨1, _⟩ =>
        show (dot_S2048x2048_S2048x64_S2048x64_1_0_0_1_n_n.rhsIdx (ix2 l d) _ 1).val = d.val
        unfold DotDims.rhsIdx
        rw [dif_neg (show ¬(1 : Fin S2048x64.rank) ∈ dot_S2048x2048_S2048x64_S2048x64_1_0_0_1_n_n.rhsBatch by decide),
          dif_pos (show (1 : Fin S2048x64.rank) ∈ dot_S2048x2048_S2048x64_S2048x64_1_0_0_1_n_n.rhsNonContracting by decide)]
        rfl)
  rw [el, er]

/-! ## The mask at an index -/

/-- The masked scores at `(l, s)`: the score where `s ≤ l`, zero elsewhere; the narrowing to bf16 changes nothing. -/
theorem masked_apply (m : FVec Ideal S2048x2048 .f32) (l s : Fin 2048) :
    (truncf .bf16 (select (cmpi .sge (iota .tc S2048x2048 32 [0] iota_S2048x2048_d0_w32) (iota .tc S2048x2048 32 [1] iota_S2048x2048_d1_w32)) m
        (broadcast S2048x2048 (Scalar.ofBits (F := Ideal) .f32 0x00000000#32))) bitsLt_bf16_f32 : FVec Ideal S2048x2048 .bf16) (ix2 l s)
      = if s.val ≤ l.val then m (ix2 l s) else 0 := by
  rw [truncf_apply, select_apply, broadcast_apply]
  show Scalar.select (IntOp.cmpi .sge (iota .tc S2048x2048 32 [0] iota_S2048x2048_d0_w32 (ix2 l s))
    (iota .tc S2048x2048 32 [1] iota_S2048x2048_d1_w32 (ix2 l s))) _ _ = _
  rw [iota_single_apply, iota_single_apply]
  show Scalar.select (IntOp.cmpi .sge (BitVec.ofNat 32 l.val) (BitVec.ofNat 32 s.val)) _ _ = _
  rw [sge_word]
  by_cases h : s.val ≤ l.val
  · rw [if_pos h, if_pos h, select_one]
  · rw [if_neg h, if_neg h, select_zero]
    exact Ideal.ofBits_zero_f32

/-! ## The body's result at an index -/

/-- What the body stores, at `(0, 0, l, d)`: `Σ_s (if s ≤ l then Σ_k Q[l, k] · K[s, k] else 0) · V[s, d]` of its three blocks. -/
theorem pay_apply (q k v : Vec Ideal S1x1x2048x64 .bf16) (l : Fin 2048) (d : Fin 64) :
    k1_pay1 (F := Ideal) q k v (ix4 (0 : Fin 1) (0 : Fin 1) l d)
      = ∑ s : Fin 2048, (if s.val ≤ l.val then
            ∑ k' : Fin 64, q (ix4 (0 : Fin 1) (0 : Fin 1) l k') * k (ix4 (0 : Fin 1) (0 : Fin 1) s k') else 0)
          * v (ix4 (0 : Fin 1) (0 : Fin 1) s d) := by
  unfold k1_pay1
  refine (castUp_apply _ l d).trans ?_
  refine (weighted_apply _ _ l d).trans ?_
  refine Finset.sum_congr rfl fun s _ => ?_
  refine congrArg₂ (· * ·) ?_ (castDown_apply v s d)
  refine (masked_apply _ l s).trans ?_
  refine if_congr Iff.rfl ?_ rfl
  refine (scores_apply _ _ l s).trans ?_
  refine Finset.sum_congr rfl fun k' _ => ?_
  exact congrArg₂ (· * ·) (castDown_apply q l k') (castDown_apply k s k')

/-- One block against the arrays: if the three blocks are the `(β, h)` matrices of `Q`, `K`, `W`, the body's result at
    `(0, 0, l, d)` is the causal core at `(β, h, l, d)`. -/
theorem block_attn (Q K W : TH.Idx → EReal) (q k v : Vec Ideal S1x1x2048x64 .bf16) (β : Fin 2) (h : Fin 16)
    (hq : ∀ (l : Fin 2048) (k' : Fin 64), q (ix4 (0 : Fin 1) (0 : Fin 1) l k') = Q (ix4 β h l k'))
    (hk : ∀ (l : Fin 2048) (k' : Fin 64), k (ix4 (0 : Fin 1) (0 : Fin 1) l k') = K (ix4 β h l k'))
    (hv : ∀ (l : Fin 2048) (d : Fin 64), v (ix4 (0 : Fin 1) (0 : Fin 1) l d) = W (ix4 β h l d))
    (j : S1x1x2048x64.Idx) (i : TH.Idx) (hi0 : (i 0).val = β.val) (hi1 : (i 1).val = h.val)
    (hi2 : (i 2).val = (j 2).val) (hi3 : (i 3).val = (j 3).val) :
    k1_pay1 (F := Ideal) q k v j = causalAttn Q K W i := by
  obtain ⟨l, d, rfl⟩ : ∃ (l : Fin 2048) (d : Fin 64), j = ix4 (0 : Fin 1) (0 : Fin 1) l d :=
    ⟨j 2, j 3, funext fun a => Fin.ext (by
      match a with
      | ⟨0, _⟩ => have h0 : (j 0).val < 1 := (j 0).isLt; show (j 0).val = 0; omega
      | ⟨1, _⟩ => have h1 : (j 1).val < 1 := (j 1).isLt; show (j 1).val = 0; omega
      | ⟨2, _⟩ => rfl
      | ⟨3, _⟩ => rfl)⟩
  obtain rfl : i = ix4 β h l d := funext fun a => Fin.ext (by
    match a with
    | ⟨0, _⟩ => exact hi0
    | ⟨1, _⟩ => exact hi1
    | ⟨2, _⟩ => exact hi2
    | ⟨3, _⟩ => exact hi3)
  rw [pay_apply]
  refine Finset.sum_congr rfl fun s _ => ?_
  show _ = (if s.val ≤ l.val then ∑ k' : Fin 64, Q (ix4 β h l k') * K (ix4 β h s k') else 0) * W (ix4 β h s d)
  rw [hv]
  refine congrArg (· * _) (if_congr Iff.rfl (Finset.sum_congr rfl fun k' _ => ?_) rfl)
  rw [hq, hk]

/-! ## From the blocks to the array -/

/-- The body reads and writes each block from its origin. -/
theorem zero_offsets : (![0, 0, 0, 0] : Fin 4 → Nat) = fun _ => 0 := funext fun a => by fin_cases a <;> rfl

/-- The index maps over the 32 points: the four windows take the same block, `(β, h, 0, 0)` with `β < 2` and `h < 16`. -/
theorem index_facts : ∀ t : Fin cfg1.N,
    (win1_0.index t (0 : Fin 4) = win1_3.index t (0 : Fin 4) ∧ win1_0.index t (1 : Fin 4) = win1_3.index t (1 : Fin 4)
      ∧ win1_0.index t (2 : Fin 4) = 0 ∧ win1_0.index t (3 : Fin 4) = 0)
    ∧ (win1_1.index t (0 : Fin 4) = win1_3.index t (0 : Fin 4) ∧ win1_1.index t (1 : Fin 4) = win1_3.index t (1 : Fin 4)
      ∧ win1_1.index t (2 : Fin 4) = 0 ∧ win1_1.index t (3 : Fin 4) = 0)
    ∧ (win1_2.index t (0 : Fin 4) = win1_3.index t (0 : Fin 4) ∧ win1_2.index t (1 : Fin 4) = win1_3.index t (1 : Fin 4)
      ∧ win1_2.index t (2 : Fin 4) = 0 ∧ win1_2.index t (3 : Fin 4) = 0)
    ∧ win1_3.index t (0 : Fin 4) ≤ 1 ∧ win1_3.index t (1 : Fin 4) ≤ 15
      ∧ win1_3.index t (2 : Fin 4) = 0 ∧ win1_3.index t (3 : Fin 4) = 0 :=
  (by decide +kernel : ∀ t : Fin grid1.N, _)

/-- Every (batch, head) pair is some point's block. -/
theorem index_onto : ∀ (β : Fin 2) (h : Fin 16), ∃ t : Fin cfg1.N, win1_3.index t = ![β.val, h.val, 0, 0] :=
  (by decide +kernel : ∀ (β : Fin 2) (h : Fin 16), ∃ t : Fin grid1.N, win1_3.index t = ![β.val, h.val, 0, 0])

variable (V : (c : Dev nD) → (b : Ref sig .tc) → Buf (Elt Ideal) ((c : Thread nD τ).loc b))

/-- What point `t` writes back is block `t` of the causal core of the three arrays the region found. -/
theorem flushed_attn (c : Dev nD) (t : Fin cfg1.N) :
    (dat1 (F := Ideal) V c).flushed 3 t
      = ((cfg1.win 3).blk t).view.read (Elt Ideal) (causalAttn (V c main_v12) (V c main_v14) (V c main_v16)) := by
  show (cfg1.win 3).cut (grid1.coords t) ((dat1 (F := Ideal) V c).after 3 t) = _
  rw [after1_3]
  unfold out1_3
  rw [View.canon_unit_zero zero_offsets]
  simp only [View.ld_unit_zero (S := S1x1x2048x64) zero_offsets]
  obtain ⟨⟨a0, a1, a2, a3⟩, ⟨b0, b1, b2, b3⟩, ⟨c0, c1, c2, c3⟩, d0, d1, d2, d3⟩ := index_facts t
  funext j
  show k1_pay1 (F := Ideal) (iblk1 V c 0 t) (iblk1 V c 1 t) (iblk1 V c 2 t) j
    = causalAttn (V c main_v12) (V c main_v14) (V c main_v16) (((cfg1.win 3).blk t).view.emb j)
  have hj2 : (j 2).val < 2048 := (j 2).isLt
  have hj3 : (j 3).val < 64 := (j 3).isLt
  have hj0 : (j 0).val < 1 := (j 0).isLt
  have hj1 : (j 1).val < 1 := (j 1).isLt
  refine block_attn (V c main_v12) (V c main_v14) (V c main_v16) (iblk1 V c 0 t) (iblk1 V c 1 t) (iblk1 V c 2 t)
    ⟨win1_3.index t (0 : Fin 4), by omega⟩ ⟨win1_3.index t (1 : Fin 4), by omega⟩ ?_ ?_ ?_ j
    (((cfg1.win 3).blk t).view.emb j) ?_ ?_ ?_ ?_
  · intro l k'
    show V c main_v12 (((cfg1.win 0).blk t).view.emb (ix4 (0 : Fin 1) (0 : Fin 1) l k')) = V c main_v12 _
    refine congrArg _ (funext fun a => Fin.ext ?_)
    match a with
    | ⟨0, _⟩ => show win1_0.index t (0 : Fin 4) * 1 + 1 * 0 = win1_3.index t (0 : Fin 4); omega
    | ⟨1, _⟩ => show win1_0.index t (1 : Fin 4) * 1 + 1 * 0 = win1_3.index t (1 : Fin 4); omega
    | ⟨2, _⟩ => show win1_0.index t (2 : Fin 4) * 2048 + 1 * l.val = l.val; omega
    | ⟨3, _⟩ => show win1_0.index t (3 : Fin 4) * 64 + 1 * k'.val = k'.val; omega
  · intro l k'
    show V c main_v14 (((cfg1.win 1).blk t).view.emb (ix4 (0 : Fin 1) (0 : Fin 1) l k')) = V c main_v14 _
    refine congrArg _ (funext fun a => Fin.ext ?_)
    match a with
    | ⟨0, _⟩ => show win1_1.index t (0 : Fin 4) * 1 + 1 * 0 = win1_3.index t (0 : Fin 4); omega
    | ⟨1, _⟩ => show win1_1.index t (1 : Fin 4) * 1 + 1 * 0 = win1_3.index t (1 : Fin 4); omega
    | ⟨2, _⟩ => show win1_1.index t (2 : Fin 4) * 2048 + 1 * l.val = l.val; omega
    | ⟨3, _⟩ => show win1_1.index t (3 : Fin 4) * 64 + 1 * k'.val = k'.val; omega
  · intro l d
    show V c main_v16 (((cfg1.win 2).blk t).view.emb (ix4 (0 : Fin 1) (0 : Fin 1) l d)) = V c main_v16 _
    refine congrArg _ (funext fun a => Fin.ext ?_)
    match a with
    | ⟨0, _⟩ => show win1_2.index t (0 : Fin 4) * 1 + 1 * 0 = win1_3.index t (0 : Fin 4); omega
    | ⟨1, _⟩ => show win1_2.index t (1 : Fin 4) * 1 + 1 * 0 = win1_3.index t (1 : Fin 4); omega
    | ⟨2, _⟩ => show win1_2.index t (2 : Fin 4) * 2048 + 1 * l.val = l.val; omega
    | ⟨3, _⟩ => show win1_2.index t (3 : Fin 4) * 64 + 1 * d.val = d.val; omega
  · show win1_3.index t (0 : Fin 4) * 1 + 1 * (j 0).val = win1_3.index t (0 : Fin 4); omega
  · show win1_3.index t (1 : Fin 4) * 1 + 1 * (j 1).val = win1_3.index t (1 : Fin 4); omega
  · show win1_3.index t (2 : Fin 4) * 2048 + 1 * (j 2).val = (j 2).val; omega
  · show win1_3.index t (3 : Fin 4) * 64 + 1 * (j 3).val = (j 3).val; omega

/-- An index of the array is in point `t`'s block iff each coordinate is in the block's range on its axis. -/
theorem mem_block (t : Fin cfg1.N) (i : S2x16x2048x64.Idx) :
    i ∈ ((cfg1.win 3).blk t).view.set ↔ ∀ a : Fin 4, win1_3.index t a * S1x1x2048x64.size a ≤ (i a).val
      ∧ (i a).val < win1_3.index t a * S1x1x2048x64.size a + S1x1x2048x64.size a := by
  show i ∈ ((View.whole main_v17).slice (win1_3.rect t)).set ↔ _
  rw [View.set_slice_whole, Rect.mem_set_unit]
  exact Iff.rfl

/-- The 32 blocks cover the array: `(β, h, l, d)` is in the block of the point whose block index is `(β, h, 0, 0)`. -/
theorem covered (i : S2x16x2048x64.Idx) :
    ∃ t : Fin cfg1.N, (cfg1.win 3).flush t = true ∧ i ∈ ((cfg1.win 3).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := index_onto ⟨(i 0).val, h0⟩ ⟨(i 1).val, h1⟩
  have q0 : win1_3.index t (0 : Fin 4) = (i 0).val := congrFun ht 0
  have q1 : win1_3.index t (1 : Fin 4) = (i 1).val := congrFun ht 1
  have q2 : win1_3.index t (2 : Fin 4) = 0 := congrFun ht 2
  have q3 : win1_3.index t (3 : Fin 4) = 0 := congrFun ht 3
  refine ⟨t, flush1_3 t, ?_⟩
  rw [mem_block]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 2048 ≤ (i 2).val ∧ (i 2).val < win1_3.index t (2 : Fin 4) * 2048 + 2048; omega
  | ⟨3, _⟩ => show win1_3.index t (3 : Fin 4) * 64 ≤ (i 3).val ∧ (i 3).val < win1_3.index t (3 : Fin 4) * 64 + 64; omega

/-- The attention output's array after the second region. -/
theorem final_attn (c : Dev nD) :
    (dat1 (F := Ideal) V c).arrAt 3 cfg1.N = causalAttn (V c main_v12) (V c main_v14) (V c main_v16) :=
  (dat1 (F := Ideal) V c).arrAt_eq_of_cover 3 (causalAttn (V c main_v12) (V c main_v14) (V c main_v16))
    (fun t _ => flushed_attn V c t) covered

end Cert.KernelIdeal.Attn

end
-- ==== Proof.KernelFold.lean ====
/-
  The fold through @main at the ideal instance, one boundary at a time, each array as a function of the nine
  arguments `X, Wq, bq, Wk, bk, Wv, bv, Wo, bo`:
    the first stretch flattens `X` into rows and turns each bias into a one-row matrix (a change of float format is
    the identity); the first region leaves the three projections `linRows (flat X) W (row1 b)`; the second stretch
    reads them at the heads; the second region leaves `causalAttn` of the three; the third stretch merges the heads
    back into rows; the third region leaves the output layer; the last stretch unflattens it. A buffer that no later
    segment writes is read back to where it was written (`Wo` and `bo` are prepared by the first stretch and used by
    the third region). The composition is `GRows`, which is `G`.
-/
import proofs.«161519_j51771535786580_1_alg».proof.Proof.Gen.KernelIdeal.Frame
import proofs.«161519_j51771535786580_1_alg».proof.Proof.LinAttnSpec
import proofs.«161519_j51771535786580_1_alg».proof.Proof.LinAttnLayout
import proofs.«161519_j51771535786580_1_alg».proof.Proof.ProjBlocks
import proofs.«161519_j51771535786580_1_alg».proof.Proof.AttnBlocks
import Idealize.ShloMosaic.Lib.StableHlo.Run

set_option maxRecDepth 16384

noncomputable section

namespace Cert.KernelIdeal.Fold

open Idealize.ShloMosaic Idealize.ShloMosaic.TcCoe Idealize.SL.Sem Idealize.ShloMosaic.ValueIdx Idealize.ShloMosaic.StableHlo
open Cert.KernelIdeal Cert.KernelIdeal.Gen Cert.LinAttn

variable (m : (ℓ : Loc nD τ sig) → Buf (Elt Ideal) ℓ) (ρ : Dev nD → PrngReg)

/-! ## The first stretch: the region's seven inputs -/

theorem rows_in (c : Dev nD) : (V1 m ρ c main_v1 : TR.Idx → EReal) = flat (m ((c : Thread nD τ).loc main_arg0)) := by
  show StableHlo.after hostOps0 (W0 m ρ c) (Proc.devRef .tc main_v1) = _
  after_results
  exact cast_flat (m ((c : Thread nD τ).loc main_arg0)) shapeCasts_S2x2048x1024_S4096x1024

theorem wq_in (c : Dev nD) : (V1 m ρ c main_v2 : TW.Idx → EReal) = m ((c : Thread nD τ).loc main_arg1) := by
  show StableHlo.after hostOps0 (W0 m ρ c) (Proc.devRef .tc main_v2) = _
  after_results
  rfl

theorem wk_in (c : Dev nD) : (V1 m ρ c main_v3 : TW.Idx → EReal) = m ((c : Thread nD τ).loc main_arg3) := by
  show StableHlo.after hostOps0 (W0 m ρ c) (Proc.devRef .tc main_v3) = _
  after_results
  rfl

theorem wv_in (c : Dev nD) : (V1 m ρ c main_v4 : TW.Idx → EReal) = m ((c : Thread nD τ).loc main_arg5) := by
  show StableHlo.after hostOps0 (W0 m ρ c) (Proc.devRef .tc main_v4) = _
  after_results
  rfl

theorem bq_in (c : Dev nD) : (V1 m ρ c main_v6 : TB2.Idx → EReal) = row1 (m ((c : Thread nD τ).loc main_arg2)) := by
  show StableHlo.after hostOps0 (W0 m ρ c) (Proc.devRef .tc main_v6) = _
  after_results
  exact cast_row1 (m ((c : Thread nD τ).loc main_arg2)) shapeCasts_S1024_S1x1024

theorem bk_in (c : Dev nD) : (V1 m ρ c main_v7 : TB2.Idx → EReal) = row1 (m ((c : Thread nD τ).loc main_arg4)) := by
  show StableHlo.after hostOps0 (W0 m ρ c) (Proc.devRef .tc main_v7) = _
  after_results
  exact cast_row1 (m ((c : Thread nD τ).loc main_arg4)) shapeCasts_S1024_S1x1024

theorem bv_in (c : Dev nD) : (V1 m ρ c main_v8 : TB2.Idx → EReal) = row1 (m ((c : Thread nD τ).loc main_arg6)) := by
  show StableHlo.after hostOps0 (W0 m ρ c) (Proc.devRef .tc main_v8) = _
  after_results
  exact cast_row1 (m ((c : Thread nD τ).loc main_arg6)) shapeCasts_S1024_S1x1024

/-! ## The first region: the three projections on rows -/

theorem q_rows (c : Dev nD) : (V2 m ρ c main_v10_0 : TR.Idx → EReal)
    = linRows (flat (m ((c : Thread nD τ).loc main_arg0))) (m ((c : Thread nD τ).loc main_arg1)) (row1 (m ((c : Thread nD τ).loc main_arg2))) := by
  refine ((W2_arr m ρ c 7).trans (Proj.final_q (V1 m ρ) c)).trans ?_
  rw [rows_in, wq_in, bq_in]

theorem k_rows (c : Dev nD) : (V2 m ρ c main_v10_1 : TR.Idx → EReal)
    = linRows (flat (m ((c : Thread nD τ).loc main_arg0))) (m ((c : Thread nD τ).loc main_arg3)) (row1 (m ((c : Thread nD τ).loc main_arg4))) := by
  refine ((W2_arr m ρ c 8).trans (Proj.final_k (V1 m ρ) c)).trans ?_
  rw [rows_in, wk_in, bk_in]

theorem v_rows (c : Dev nD) : (V2 m ρ c main_v10_2 : TR.Idx → EReal)
    = linRows (flat (m ((c : Thread nD τ).loc main_arg0))) (m ((c : Thread nD τ).loc main_arg5)) (row1 (m ((c : Thread nD τ).loc main_arg6))) := by
  refine ((W2_arr m ρ c 9).trans (Proj.final_v (V1 m ρ) c)).trans ?_
  rw [rows_in, wv_in, bv_in]

/-! ## The second stretch: the projections at the heads -/

theorem q_heads (c : Dev nD) : (V3 m ρ c main_v12 : TH.Idx → EReal) = headsRows (V2 m ρ c main_v10_0) := by
  show StableHlo.after hostOps1 (W2 m ρ c) (Proc.devRef .tc main_v12) = _
  after_results
  exact heads_layout (V2 m ρ c main_v10_0) shapeCasts_S4096x1024_S2x2048x16x64 transposes_S2x2048x16x64_S2x16x2048x64_0_2_1_3

theorem k_heads (c : Dev nD) : (V3 m ρ c main_v14 : TH.Idx → EReal) = headsRows (V2 m ρ c main_v10_1) := by
  show StableHlo.after hostOps1 (W2 m ρ c) (Proc.devRef .tc main_v14) = _
  after_results
  exact heads_layout (V2 m ρ c main_v10_1) shapeCasts_S4096x1024_S2x2048x16x64 transposes_S2x2048x16x64_S2x16x2048x64_0_2_1_3

theorem v_heads (c : Dev nD) : (V3 m ρ c main_v16 : TH.Idx → EReal) = headsRows (V2 m ρ c main_v10_2) := by
  show StableHlo.after hostOps1 (W2 m ρ c) (Proc.devRef .tc main_v16) = _
  after_results
  exact heads_layout (V2 m ρ c main_v10_2) shapeCasts_S4096x1024_S2x2048x16x64 transposes_S2x2048x16x64_S2x16x2048x64_0_2_1_3

/-! ## The second region, and the third stretch: attention, merged back into rows -/

theorem attn_out (c : Dev nD) : (V4 m ρ c main_v17 : TH.Idx → EReal)
    = causalAttn (V3 m ρ c main_v12) (V3 m ρ c main_v14) (V3 m ρ c main_v16) :=
  (W4_arr m ρ c 3).trans (Attn.final_attn (V3 m ρ) c)

theorem merged (c : Dev nD) : (V5 m ρ c main_v20 : TR.Idx → EReal) = mergeRows (V4 m ρ c main_v17) := by
  show StableHlo.after hostOps2 (W4 m ρ c) (Proc.devRef .tc main_v20) = _
  after_results
  exact merge_layout (V4 m ρ c main_v17) transposes_S2x16x2048x64_S2x2048x16x64_0_2_1_3 shapeCasts_S2x2048x16x64_S4096x1024

/-! ## The output layer's weight and bias, read back to the first stretch -/

theorem wo_in (c : Dev nD) : (V5 m ρ c main_v5 : TW.Idx → EReal) = m ((c : Thread nD τ).loc main_arg7) := by
  show StableHlo.after hostOps2 (W4 m ρ c) (Proc.devRef .tc main_v5) = _
  after_results
  rw [W4_of_ne m ρ c main_v5 (by decide)]
  show StableHlo.after hostOps1 (W2 m ρ c) (Proc.devRef .tc main_v5) = _
  after_results
  rw [W2_of_ne m ρ c main_v5 (by decide)]
  show StableHlo.after hostOps0 (W0 m ρ c) (Proc.devRef .tc main_v5) = _
  after_results
  rfl

theorem bo_in (c : Dev nD) : (V5 m ρ c main_v9 : TB2.Idx → EReal) = row1 (m ((c : Thread nD τ).loc main_arg8)) := by
  show StableHlo.after hostOps2 (W4 m ρ c) (Proc.devRef .tc main_v9) = _
  after_results
  rw [W4_of_ne m ρ c main_v9 (by decide)]
  show StableHlo.after hostOps1 (W2 m ρ c) (Proc.devRef .tc main_v9) = _
  after_results
  rw [W2_of_ne m ρ c main_v9 (by decide)]
  show StableHlo.after hostOps0 (W0 m ρ c) (Proc.devRef .tc main_v9) = _
  after_results
  exact cast_row1 (m ((c : Thread nD τ).loc main_arg8)) shapeCasts_S1024_S1x1024

/-! ## The third region and the last stretch -/

theorem out_rows (c : Dev nD) : (V6 m ρ c main_v21 : TR.Idx → EReal)
    = linRows (V5 m ρ c main_v20) (V5 m ρ c main_v5) (V5 m ρ c main_v9) :=
  (W6_arr m ρ c 3).trans (Proj.final_out (V5 m ρ) c)

theorem result_unflat (c : Dev nD) : (W7 m ρ c (Proc.devRef .tc main_v22) : T3.Idx → EReal) = unflat (V6 m ρ c main_v21) := by
  show StableHlo.after hostOps3 (W6 m ρ c) (Proc.devRef .tc main_v22) = _
  after_results
  exact cast_unflat (V6 m ρ c main_v21) shapeCasts_S4096x1024_S2x2048x1024

/-- The result buffer at the end of the fold is `G` of the nine arguments. -/
theorem result_eq (c : Dev nD) : (W7 m ρ c (Proc.devRef .tc main_v22) : T3.Idx → EReal)
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [result_unflat, out_rows, merged, wo_in, bo_in, attn_out, q_heads, k_heads, v_heads, q_rows, k_rows, v_rows]
  exact rows_eq _ _ _ _ _ _ _ _ _

end Cert.KernelIdeal.Fold

end
-- ==== Proof.RefIsG.lean ====
/-
  The reference program's result, read one operation at a time, is `G` of its nine arguments: three linear
  layers split into heads, the scores multiplied by the lower-triangular matrix of ones (a score times `1` is
  the score, times `0` is `0`, on every extended real), the product with the values, the heads merged, and
  the last linear layer.

  The stages, in the order of the program:
    * a contraction over the feature axis plus the bias broadcast along batch and position is `lin`;
    * the reshape [2, 2048, 1024] → [2, 2048, 16, 64] followed by the exchange of the two middle axes reads
      feature `64·h + d` of position `l`: that is `heads` (row-major position
      `((β·2048 + l)·16 + h)·64 + d = (β·2048 + l)·1024 + (64·h + d)`);
    * the mask compares two counters below 2048 as signed 32-bit words, which is the comparison of the
      naturals (both are far below 2^31); it selects between the words of `1.0` and `0.0`;
    * `(Σ_k q·k) · 1 = Σ_k q·k` and `(Σ_k q·k) · 0 = 0` hold for every extended real, infinite ones included,
      so the masked contraction with the values is `causalAttn`;
    * the exchange of the middle axes followed by the reshape back reads head `e / 64`, entry `e % 64`: `merge`.
-/
import proofs.«161519_j51771535786580_1_alg».proof.Proof.Gen.ReferenceIdeal.Read
import proofs.«161519_j51771535786580_1_alg».proof.Proof.LinAttnSpec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.LinAttn

/-! ## The two float words of the mask -/

/-- The word of `1.0` denotes `1`. -/
theorem ofBits_one_f32 : Ideal.ofBits .f32 0x3F800000#32 = 1 := by
  simp [Ideal.ofBits, Ideal.ieee, -EReal.coe_mul]; norm_num

/-! ## The mask's comparison -/

/-- A counter below 2048, as a 32-bit word read signed, is itself. -/
theorem toInt_ofNat_small (n : Nat) (h : n < 2048) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- The signed comparison `row + 0 ≥ col` of two counters below 2048 is `col ≤ row`. -/
theorem mask_word (r c : Nat) (hr : r < 2048) (hc : c < 2048) :
    IntOp.cmpi .sge (IntOp.addi (BitVec.ofNat 32 r) 0#32) (BitVec.ofNat 32 c) = if c ≤ r then 1#1 else 0#1 := by
  unfold IntOp.addi
  rw [BitVec.add_zero]
  show BitVec.ofBool ((BitVec.ofNat 32 c).sle (BitVec.ofNat 32 r)) = _
  unfold BitVec.sle
  rw [toInt_ofNat_small c hc, toInt_ofNat_small r hr]
  by_cases h : c ≤ r
  · rw [if_pos h, decide_eq_true (by omega)]; rfl
  · rw [if_neg h, decide_eq_false (by omega)]; rfl

/-- The lower-triangular matrix of ones: `1` where the column is at most the row, `0` elsewhere. -/
theorem mask_apply (j : S2048x2048.Idx) :
    Read.val_main_v20 (F := Ideal) j = if (j 1).val ≤ (j 0).val then (1 : EReal) else 0 := by
  rw [Read.val_main_v20_apply, Read.val_main_call0_v4_apply, Read.val_main_call0_v2_apply,
    Read.val_main_call0_v0_apply, Read.val_main_call0_v1_apply, Read.val_main_call0_c_apply,
    Read.val_main_call0_v3_apply, Read.val_main_v19_apply, Read.val_main_cst_apply,
    Read.val_main_call0_v5_apply, Read.val_main_call0_cst_apply,
    mask_word _ _ (j 0).isLt (j 1).isLt, Ideal.ofBits_def, Ideal.ofBits_def, ofBits_one_f32,
    Ideal.ofBits_zero_f32]
  by_cases h : (j 1).val ≤ (j 0).val
  · rw [if_pos h, if_pos h]; exact select_one _ _
  · rw [if_neg h, if_neg h]; exact select_zero _ _

/-! ## A linear layer -/

/-- The contraction over the feature axis plus the broadcast bias is `lin`. -/
theorem lin_eq (X : (⟨S2x2048x1024, .f32⟩ : BufTy).Contents (Elt Ideal)) (W : (⟨S1024x1024, .f32⟩ : BufTy).Contents (Elt Ideal)) (b : (⟨S1024, .f32⟩ : BufTy).Contents (Elt Ideal)) :
    Read.val_main_v3 (F := Ideal) X W b = lin X W b := by
  funext i
  rw [Read.val_main_v3_apply, Read.val_main_v0_apply, Read.val_main_v2_apply, Read.val_main_v1_apply,
    Ideal.addf_def]
  unfold lin
  refine congrArg₂ (· + ·) (Finset.sum_congr rfl fun k _ => ?_) (congrArg b ?_)
  · refine congrArg₂ (· * ·) (congrArg X ?_) (congrArg W ?_)
    · funext a; match a with | ⟨0, _⟩ => rfl | ⟨1, _⟩ => rfl | ⟨2, _⟩ => rfl
    · funext a; match a with | ⟨0, _⟩ => rfl | ⟨1, _⟩ => rfl
  · funext a; match a with | ⟨0, _⟩ => rfl

/-! ## Splitting into heads -/

/-- The reshape to [2, 2048, 16, 64] and the exchange of the middle axes read feature `64·h + d`. -/
theorem heads_eq (X : (⟨S2x2048x1024, .f32⟩ : BufTy).Contents (Elt Ideal)) (W : (⟨S1024x1024, .f32⟩ : BufTy).Contents (Elt Ideal)) (b : (⟨S1024, .f32⟩ : BufTy).Contents (Elt Ideal)) :
    Read.val_main_v5 (F := Ideal) X W b = heads (Read.val_main_v3 (F := Ideal) X W b) := by
  funext i
  rw [Read.val_main_v5_apply, Read.val_main_v4_apply]
  unfold heads
  refine congrArg _ (funext fun a => Fin.ext ?_)
  have h0 : (i 0).val < 2 := (i 0).isLt
  have h1 : (i 1).val < 16 := (i 1).isLt
  have h2 : (i 2).val < 2048 := (i 2).isLt
  have h3 : (i 3).val < 64 := (i 3).isLt
  match a with
  | ⟨0, _⟩ =>
    show ((((i 0).val * 2048 + (i 2).val) * 16 + (i 1).val) * 64 + (i 3).val) / 2097152 = (i 0).val
    omega
  | ⟨1, _⟩ =>
    show ((((i 0).val * 2048 + (i 2).val) * 16 + (i 1).val) * 64 + (i 3).val) / 1024 % 2048 = (i 2).val
    omega
  | ⟨2, _⟩ =>
    show ((((i 0).val * 2048 + (i 2).val) * 16 + (i 1).val) * 64 + (i 3).val) % 1024 = (i 1).val * 64 + (i 3).val
    omega

/-- The three projections are one function of different weights. -/
theorem k_eq (X : (⟨S2x2048x1024, .f32⟩ : BufTy).Contents (Elt Ideal)) (W : (⟨S1024x1024, .f32⟩ : BufTy).Contents (Elt Ideal)) (b : (⟨S1024, .f32⟩ : BufTy).Contents (Elt Ideal)) :
    Read.val_main_v11 (F := Ideal) X W b = Read.val_main_v5 (F := Ideal) X W b := rfl
theorem v_eq (X : (⟨S2x2048x1024, .f32⟩ : BufTy).Contents (Elt Ideal)) (W : (⟨S1024x1024, .f32⟩ : BufTy).Contents (Elt Ideal)) (b : (⟨S1024, .f32⟩ : BufTy).Contents (Elt Ideal)) :
    Read.val_main_v17 (F := Ideal) X W b = Read.val_main_v5 (F := Ideal) X W b := rfl

/-! ## The causal core -/

/-- Scores, mask, and the contraction with the values. -/
theorem attn_eq (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    Read.val_main_v24 (F := Ideal) x0 x1 x2 x3 x4 x5 x6
      = causalAttn (Read.val_main_v5 (F := Ideal) x0 x1 x2) (Read.val_main_v11 (F := Ideal) x0 x3 x4)
          (Read.val_main_v17 (F := Ideal) x0 x5 x6) := by
  funext i
  rw [Read.val_main_v24_apply]
  unfold causalAttn
  refine Finset.sum_congr rfl fun s _ => ?_
  rw [Read.val_main_v23_apply, Read.val_main_v18_apply, Read.val_main_v22_apply, Read.val_main_v21_apply,
    mask_apply, Ideal.mulf_def]
  have eV : Read.ridx_main_v24 i s = ix4 (i 0) (i 1) s (i 3) := by
    funext a; match a with | ⟨0, _⟩ => rfl | ⟨1, _⟩ => rfl | ⟨2, _⟩ => rfl | ⟨3, _⟩ => rfl
  have eQ : ∀ k : Fin 64, Read.lidx_main_v18 (Read.lidx_main_v24 i s) k = ix4 (i 0) (i 1) (i 2) k := fun k => by
    funext a; match a with | ⟨0, _⟩ => rfl | ⟨1, _⟩ => rfl | ⟨2, _⟩ => rfl | ⟨3, _⟩ => rfl
  have eK : ∀ k : Fin 64, Read.ridx_main_v18 (Read.lidx_main_v24 i s) k = ix4 (i 0) (i 1) s k := fun k => by
    funext a; match a with | ⟨0, _⟩ => rfl | ⟨1, _⟩ => rfl | ⟨2, _⟩ => rfl | ⟨3, _⟩ => rfl
  rw [eV]
  refine congrArg (· * _) ?_
  show _ * (if s.val ≤ (i 2).val then (1 : EReal) else 0) = _
  simp only [eQ, eK]
  rw [mul_ite, mul_one, mul_zero]
  rfl

/-! ## Merging the heads -/

/-- The exchange of the middle axes and the reshape back read head `e / 64`, entry `e % 64`. -/
theorem merge_eq (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    Read.val_main_v26 (F := Ideal) x0 x1 x2 x3 x4 x5 x6
      = merge (Read.val_main_v24 (F := Ideal) x0 x1 x2 x3 x4 x5 x6) := by
  funext i
  rw [Read.val_main_v26_apply, Read.val_main_v25_apply]
  unfold merge
  refine congrArg _ (funext fun a => Fin.ext ?_)
  have h0 : (i 0).val < 2 := (i 0).isLt
  have h1 : (i 1).val < 2048 := (i 1).isLt
  have h2 : (i 2).val < 1024 := (i 2).isLt
  match a with
  | ⟨0, _⟩ =>
    show (((i 0).val * 2048 + (i 1).val) * 1024 + (i 2).val) / 2097152 = (i 0).val
    omega
  | ⟨1, _⟩ =>
    show (((i 0).val * 2048 + (i 1).val) * 1024 + (i 2).val) / 64 % 16 = (i 2).val / 64
    omega
  | ⟨2, _⟩ =>
    show (((i 0).val * 2048 + (i 1).val) * 1024 + (i 2).val) / 1024 % 2048 = (i 1).val
    omega
  | ⟨3, _⟩ =>
    show (((i 0).val * 2048 + (i 1).val) * 1024 + (i 2).val) % 64 = (i 2).val % 64
    omega

/-! ## The whole program -/

/-- The last linear layer is the first one's function applied to the merged heads. -/
theorem out_eq (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    Read.val_main_v30 (F := Ideal) x0 x1 x2 x3 x4 x5 x6 x7 x8
      = Read.val_main_v3 (F := Ideal) (Read.val_main_v26 (F := Ideal) x0 x1 x2 x3 x4 x5 x6) x7 x8 := rfl

/-- The reference's last stage is `G` of the arguments. -/
theorem ref_eq (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) :
    Read.val_main_v30 (F := Ideal) x0 x1 x2 x3 x4 x5 x6 x7 x8 = G x0 x1 x2 x3 x4 x5 x6 x7 x8 := by
  rw [out_eq, lin_eq, merge_eq, attn_eq, k_eq, v_eq, heads_eq, heads_eq, heads_eq, lin_eq, lin_eq, lin_eq]
  rfl

end Cert.ReferenceIdeal.RefValue

end
-- ==== Proof.lean ====
/-
  Causal linear attention, as three kernel regions chained by host re-layouts, against its plain reference: equal
  results on the extended reals.

  Both programs compute, from `X : [2, 2048, 1024]`, four weight matrices and four biases, the function `G` of
  Proof/LinAttnSpec.lean: queries, keys and values by a linear layer each, split into 16 heads of width 64; per batch
  and head the scores `Q·Kᵀ` kept on and below the diagonal and `0` above it, times the values; the heads merged; a last
  linear layer. The kernel program does it on flattened rows, a row block per grid point for the linear layers and a
  (batch, head) pair per grid point for the attention, masking by a select against `0`; the reference does it in
  coordinates and masks by multiplying with the lower-triangular matrix of ones. The two maskings agree on every
  extended real (`x·1 = x`, `x·0 = 0`), every product is a product into a zero accumulator, and a change of float
  format is the identity: nothing in the argument needs the inputs finite.

  The kernel program's result is read off its run segment by segment (Proof/KernelRun.lean: the run with the result
  named; Proof/ProjBlocks.lean and Proof/AttnBlocks.lean: what each region leaves; Proof/KernelFold.lean: the fold
  through the segments is `G`), the reference's off its operations one at a time (Proof/RefIsG.lean). The ideal pass
  rewrote nothing, so the idealization claim is trivial; the frames are the generated ones.
-/
import proofs.«161519_j51771535786580_1_alg».proof.Defs
import proofs.«161519_j51771535786580_1_alg».proof.Proof.Gen.Kernel
import proofs.«161519_j51771535786580_1_alg».proof.Proof.Gen.Kernel.Skeleton
import proofs.«161519_j51771535786580_1_alg».proof.Proof.Gen.Kernel.Launch
import proofs.«161519_j51771535786580_1_alg».proof.Proof.Gen.Kernel.Points
import proofs.«161519_j51771535786580_1_alg».proof.Proof.Gen.Kernel.Frame
import proofs.«161519_j51771535786580_1_alg».proof.Proof.Gen.KernelIdeal
import proofs.«161519_j51771535786580_1_alg».proof.Proof.Gen.KernelIdeal.Skeleton
import proofs.«161519_j51771535786580_1_alg».proof.Proof.Gen.KernelIdeal.Launch
import proofs.«161519_j51771535786580_1_alg».proof.Proof.Gen.KernelIdeal.Points
import proofs.«161519_j51771535786580_1_alg».proof.Proof.Gen.KernelIdeal.Frame
import proofs.«161519_j51771535786580_1_alg».proof.Proof.Gen.ReferenceIdeal
import proofs.«161519_j51771535786580_1_alg».proof.Proof.Gen.ReferenceIdeal.Run
import proofs.«161519_j51771535786580_1_alg».proof.Proof.Gen.ReferenceIdeal.Read
import proofs.«161519_j51771535786580_1_alg».proof.Proof.Gen.Pre_finite_inputs
import proofs.«161519_j51771535786580_1_alg».proof.Proof.LinAttnSpec
import proofs.«161519_j51771535786580_1_alg».proof.Proof.KernelRun
import proofs.«161519_j51771535786580_1_alg».proof.Proof.KernelFold
import proofs.«161519_j51771535786580_1_alg».proof.Proof.RefIsG
import Idealize.ShloMosaic.Adequacy
import Idealize.ShloMosaic.Init

noncomputable section

namespace Cert.Proof

open Idealize.ShloMosaic Idealize.ShloMosaic.TcCoe Idealize.SL.Sem

section Claims
variable [hKernel : Cert.Kernel.Facts] [hKernelIdeal : Cert.KernelIdeal.Facts] [hReferenceIdeal : Cert.ReferenceIdeal.Facts]
  [hPre_finite_inputs : Cert.Pre_finite_inputs.Facts]

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with `G` of the arguments in the result buffer: the kernel program's by the fold through its
    segments, the reference's by its operations read one at a time; the arguments agree by hypothesis. -/
theorem algebraic : Cert.algebraic_KernelIdeal_ReferenceIdeal := by
  intro m ρ m' ρ' _ hagree
  refine ⟨fun c => Cert.LinAttn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v30_eq, Cert.ReferenceIdeal.RefValue.ref_eq, e0, e1, e2, e3, e4, e5, e6, e7, e8]

end Claims

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
